-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S32x128 : Shape := ⟨2, ![32, 128]⟩
abbrev S1024x512 : Shape := ⟨2, ![1024, 512]⟩
abbrev S1024x1 : Shape := ⟨2, ![1024, 1]⟩
abbrev S1x1024 : Shape := ⟨2, ![1, 1024]⟩
abbrev S8x128 : Shape := ⟨2, ![8, 128]⟩
abbrev S512x1024 : Shape := ⟨2, ![512, 1024]⟩
abbrev S1024x1024 : Shape := ⟨2, ![1024, 1024]⟩
abbrev S1 : Shape := ⟨1, ![1]⟩
abbrev S1x1 : Shape := ⟨2, ![1, 1]⟩
abbrev S1024 : Shape := ⟨1, ![1024]⟩

abbrev nBuf : Space → Nat
  | .hbm => 12
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S_, .f32⟩
  | .hbm, ⟨3, _⟩ => ⟨S4096, .f32⟩
  | .hbm, ⟨4, _⟩ => ⟨S4096x1, .f32⟩
  | .hbm, ⟨5, _⟩ => ⟨S1x4096, .f32⟩
  | .hbm, ⟨6, _⟩ => ⟨S4096x512, .bf16⟩
  | .hbm, ⟨7, _⟩ => ⟨S32x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S8x128, .f32⟩
  | .local _ .vmem, ⟨9, _⟩ => ⟨S8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S4096x512_S4096_d1 : S4096x512.ReducesTo [1] S4096
  h_S_ : 0 < S_.numel
  shapeCasts_S4096_S4096x1 : S4096.ShapeCasts S4096x1
  shapeCasts_S4096_S1x4096 : S4096.ShapeCasts S1x4096
  bitsLt_bf16_f32 : FTy.bits .bf16 < FTy.bits .f32
  inb_S8x128_S8x128_0_0 : ∀ a, (![0, 0] : Fin 2 → Nat) a + S8x128.size a ≤ S8x128.size a
  h_S8x128 : 0 < S8x128.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1_S1 : S1024x1.Reduces [0] S1
  shapeCasts_S1_S1x1 : S1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S1x1024_S1 : S1x1024.Reduces [1] S1
  reduces_S1024x1024_S1024 : S1024x1024.Reduces [1] S1024
  shapeCasts_S1024_S1024x1 : S1024.ShapeCasts S1024x1
  inb_S8x128_S1x1_0_0 : ∀ a, (![0, 0] : Fin 2 → Nat) a + S1x1.size a ≤ S8x128.size a
  h_S1x1 : 0 < S1x1.numel
  shapeCasts_S1x1_S1x1 : S1x1.ShapeCasts S1x1
  iota_S1024x1024_d0_w32 : S1024x1024.Iotas .tc 32 [0]
  iota_S1024x1024_d1_w32 : S1024x1024.Iotas .tc 32 [1]
  reducesTo_S32x128_S_d0_1 : S32x128.ReducesTo [0, 1] S_
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .bf16 = 32 ∨ (Rect.block (s := S4096x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x512.size a
  hwx0_1 : ∀ i : grid0.Coords, EltTy.bits .bf16 = 32 ∨ (Rect.block (s := S4096x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S32x128.size a
  hwx0_4 : ∀ i : grid0.Coords, EltTy.bits .f32 = 32 ∨ (Rect.block (s := S32x128) S8x128.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v4) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x512 : Shape := ⟨2, ![4096, 512]⟩
abbrev S_ : Shape := ⟨0, ![]⟩
abbrev S4096 : Shape := ⟨1, ![4096]⟩
abbrev S512x4096 : Shape := ⟨2, ![512, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S_, .f32⟩
  | .hbm, ⟨3, _⟩ => ⟨S4096, .f32⟩
  | .hbm, ⟨4, _⟩ => ⟨S512x4096, .f32⟩
  | .hbm, ⟨5, _⟩ => ⟨S4096x4096, .f32⟩
  | .hbm, ⟨6, _⟩ => ⟨S4096x1, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .i32⟩
  | .hbm, ⟨19, _⟩ => ⟨S4096x4096, .i32⟩
  | .hbm, ⟨20, _⟩ => ⟨S_, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_3 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  transposes_S4096x512_S512x4096_1_0 : S4096x512.Transposes [1, 0] S512x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.K.Entry.lean ====
/-
  The kernel's program around its one region: the six host operations before it (the squared row lengths,
  their two reshapes, the cast of the matrix), the region, the four host operations after it (the sum of the result
  blocks and the division by the number of ordered pairs). What every TensorCore buffer holds when the region is
  entered (`V`), that the program reduces to the region continued by the later operations (`hmain`), and a window's
  block at a grid point read off the array the region finds (`iblk`).
-/
import proofs.«133118_j73297911873997_2_alg».proof.Proof.Gen.Kernel.Launch
import proofs.«133118_j73297911873997_2_alg».proof.Proof.Gen.Kernel.Skeleton
import proofs.«133118_j73297911873997_2_alg».proof.Proof.Gen.Kernel.Points
import Idealize.ShloMosaic.Lib.Pipeline.FrameSuffix
import Idealize.ShloMosaic.Lib.Pipeline.FrameBody

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s TensorCore buffer contents when the region is entered, as a valuation: after the six host operations
    before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program reduces to the region continued by the four later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (List.forall_iff_forall_mem.mpr fun ops hops => by rw [List.mem_singleton] at hops; subst hops; exact hostOps0_sub)
    (List.forall_iff_forall_mem.mpr fun ops hops => by rw [List.mem_singleton] at hops; subst hops; exact hostOps0_fresh) main_chain

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.K.Runs.lean ====
/-
  What the runs of the kernel body share: what each input window's staging buffer holds when the body runs (its
  block, fetched at the point or not), the body's two branch conditions as functions of the grid point — the
  column coordinate is zero (the accumulator is reset), the two coordinates are equal (a diagonal tile) — decided
  over the 16 points in closed form, and the staging memrefs the pipeline hands the body at a point.
-/
import proofs.«133118_j73297911873997_2_alg».proof.Proof.K.Entry
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Input window 0's current staging buffer holds its block at every point, fetched there or not, for any proof data
    whose array is the region-entry one and whose body leaves the block in place: unfetched, the block index has
    not moved since the fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry one and whose body leaves the block in place: unfetched, the block index has
    not moved since the fetch. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry one and whose body leaves the block in place: unfetched, the block index has
    not moved since the fetch. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry one and whose body leaves the block in place: unfetched, the block index has
    not moved since the fetch. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first conditional's condition: the column coordinate of the grid point is zero. -/
abbrev cond0_0 (i : grid0.Coords) : Prop := (Scalar.cmpi .ne (Scalar.extui (Scalar.cmpi .eq (BitVec.ofNat 32 (i 1).val) 0#32)) 0#32) = 1#1
/-- It holds at the points 0, 4, 8, 12. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition: the two coordinates of the grid point are equal. -/
abbrev cond0_1 (i : grid0.Coords) : Prop := (Scalar.cmpi .ne (Scalar.extui (Scalar.cmpi .eq (BitVec.ofNat 32 (i 0).val) (BitVec.ofNat 32 (i 1).val))) 0#32) = 1#1
/-- It holds at the points 0, 5, 10, 15. -/
theorem hcond0_1 : ∀ t : Fin cfg0.N, cond0_1 (grid0.coords t) ↔ t.val / 4 = t.val % 4 :=
  (by decide +kernel : ∀ t : Fin grid0.N, cond0_1 (grid0.coords t) ↔ t.val / 4 = t.val % 4)

/-! ## The staging memrefs at a point -/

/-- One staging buffer of the output window, through which its contents are stated. -/
abbrev VO0_4 : View sig .tc .vmem S8x128 .f32 := (Memref.whole cc0_stg4_0 : Memref sig .tc .vmem S8x128 .f32).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)

end Cert.Kernel.Hand

end
-- ==== Proof.K.RunA.lean ====
/-
  The kernel body run whole at a grid point whose column coordinate is zero and whose coordinates are equal (the
  first point): the accumulator block is reset, the tile's closed-form sum is added to its first cell, and the
  diagonal's correction is taken off it.
-/
import proofs.«133118_j73297911873997_2_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref, as pieces (last first), in the case named in the
    module's header, with the proof that on whole staging memrefs — the inputs' at their contents, the output's at
    anything — the body runs to the continuation holding the inputs' as they were and the output's buffer with
    the pieces written. The pieces are the witness the run finds. -/
noncomputable def kernelRun0_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : cond0_0 i) (hc1 : cond0_1 i)
    (x0 : Vec F S1024x512 .bf16) (x1 : Vec F S1024x512 .bf16) (x2 : Vec F S1024x1 .f32) (x3 : Vec F S1x1024 .f32) :
    { L4 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__pairwise_kernel i arg2 harg2 arg3 harg3 arg4 harg4 arg5 harg5 arg6 harg6) K } := by
  refine ⟨?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.K.RunB.lean ====
/-
  The kernel body run whole at a grid point whose column coordinate is zero and whose coordinates differ (points 4,
  8, 12): the accumulator block is reset and the tile's closed-form sum is added to its first cell.
-/
import proofs.«133118_j73297911873997_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref, as pieces (last first), in the case named in the
    module's header, with the proof that on whole staging memrefs — the inputs' at their contents, the output's at
    anything — the body runs to the continuation holding the inputs' as they were and the output's buffer with
    the pieces written. The pieces are the witness the run finds. -/
noncomputable def kernelRun0_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : cond0_0 i) (hc1 : ¬cond0_1 i)
    (x0 : Vec F S1024x512 .bf16) (x1 : Vec F S1024x512 .bf16) (x2 : Vec F S1024x1 .f32) (x3 : Vec F S1x1024 .f32) :
    { L4 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__pairwise_kernel i arg2 harg2 arg3 harg3 arg4 harg4 arg5 harg5 arg6 harg6) K } := by
  refine ⟨?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Hand

end
-- ==== Proof.K.RunC.lean ====
/-
  The kernel body run whole at a grid point whose column coordinate is not zero and whose coordinates are equal
  (points 5, 10, 15): the tile's closed-form sum is added to the first cell of the accumulator block the point
  before left, and the diagonal's correction is taken off it.
-/
import proofs.«133118_j73297911873997_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref, as pieces (last first), in the case named in the
    module's header, with the proof that on whole staging memrefs — the inputs' at their contents, the output's at
    the running contents `xo` the point before left — the body runs to the continuation holding the inputs' as they
    were and the output's buffer at `xo` with the pieces written over it. The pieces are the witness the run finds. -/
noncomputable def kernelRun0_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : ¬cond0_0 i) (hc1 : cond0_1 i)
    (x0 : Vec F S1024x512 .bf16) (x1 : Vec F S1024x512 .bf16) (x2 : Vec F S1024x1 .f32) (x3 : Vec F S1x1024 .f32) (xo : Vec F S8x128 .f32) :
    { L4 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread xo) L4)) -∗ K ⟨⟩))
          ⊢ wp frame (wpE (defs₀ (F := F)) Variants.none c none) E (cc0__pairwise_kernel i arg2 harg2 arg3 harg3 arg4 harg4 arg5 harg5 arg6 harg6) K } := by
  refine ⟨?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexact H4

end Cert.Kernel.Hand

end
-- ==== Proof.K.RunD.lean ====
/-
  The kernel body run whole at a grid point whose column coordinate is not zero and whose coordinates differ (the
  other nine points): the tile's closed-form sum is added to the first cell of the accumulator block the point
  before left.
-/
import proofs.«133118_j73297911873997_2_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref, as pieces (last first), in the case named in the
    module's header, with the proof that on whole staging memrefs — the inputs' at their contents, the output's at
    the running contents `xo` the point before left — the body runs to the continuation holding the inputs' as they
    were and the output's buffer at `xo` with the pieces written over it. The pieces are the witness the run finds. -/
noncomputable def kernelRun0_D (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : ¬cond0_0 i) (hc1 : ¬cond0_1 i)
    (x0 : Vec F S1024x512 .bf16) (x1 : Vec F S1024x512 .bf16) (x2 : Vec F S1024x1 .f32) (x3 : Vec F S1x1024 .f32) (xo : Vec F S8x128 .f32) :
    { L4 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread xo) L4)) -∗ K ⟨⟩))
          ⊢ wp frame (wpE (defs₀ (F := F)) Variants.none c none) E (cc0__pairwise_kernel i arg2 harg2 arg3 harg3 arg4 harg4 arg5 harg5 arg6 harg6) K } := by
  refine ⟨?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexact H4

end Cert.Kernel.Hand

end
-- ==== Proof.K.Body.lean ====
/-
  The pipeline's proof data for the kernel and its body obligation. The output block of row block i is carried in
  its staging buffer across the four points of that row: reset at the first (column coordinate zero), added to at
  each, corrected at the diagonal one, written back after the fourth. `outsAt0` says what the buffer holds after
  each point by recursion on the point; the inputs' buffers hold their blocks.
-/
import proofs.«133118_j73297911873997_2_alg».proof.Proof.K.RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In this case the first store writes the whole block, so the pieces cover it. -/
theorem cover0_A_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : cond0_0 i) (hc1 : cond0_1 i)
    (x0 : Vec F S1024x512 .bf16) (x1 : Vec F S1024x512 .bf16) (x2 : Vec F S1024x1 .f32) (x3 : Vec F S1x1024 .f32) (y : S8x128.Idx) :
    ∃ pc ∈ (kernelRun0_A c i arg2 harg2 arg3 harg3 arg4 harg4 arg5 harg5 arg6 harg6 hc0 hc1 x0 x1 x2 x3).1, y ∈ pc.1.set :=
  View.cover_of_wholeMem (kernelRun0_A c i arg2 harg2 arg3 harg3 arg4 harg4 arg5 harg5 arg6 harg6 hc0 hc1 x0 x1 x2 x3).1 (by sl_whole_mem) y

/-- What this case leaves in the output's staging buffer: its pieces read back (over anything: they cover). -/
def out0_A_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : cond0_0 i) (hc1 : cond0_1 i)
    (x0 : Vec F S1024x512 .bf16) (x1 : Vec F S1024x512 .bf16) (x2 : Vec F S1024x1 .f32) (x3 : Vec F S1x1024 .f32) : Vec F S8x128 .f32 :=
  VO0_4.read (Elt F) (VO0_4.writes (Elt F) VO0_4.junk (kernelRun0_A c i arg2 harg2 arg3 harg3 arg4 harg4 arg5 harg5 arg6 harg6 hc0 hc1 x0 x1 x2 x3).1)

/-- In this case the first store writes the whole block, so the pieces cover it. -/
theorem cover0_B_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : cond0_0 i) (hc1 : ¬cond0_1 i)
    (x0 : Vec F S1024x512 .bf16) (x1 : Vec F S1024x512 .bf16) (x2 : Vec F S1024x1 .f32) (x3 : Vec F S1x1024 .f32) (y : S8x128.Idx) :
    ∃ pc ∈ (kernelRun0_B c i arg2 harg2 arg3 harg3 arg4 harg4 arg5 harg5 arg6 harg6 hc0 hc1 x0 x1 x2 x3).1, y ∈ pc.1.set :=
  View.cover_of_wholeMem (kernelRun0_B c i arg2 harg2 arg3 harg3 arg4 harg4 arg5 harg5 arg6 harg6 hc0 hc1 x0 x1 x2 x3).1 (by sl_whole_mem) y

/-- What this case leaves in the output's staging buffer: its pieces read back (over anything: they cover). -/
def out0_B_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : cond0_0 i) (hc1 : ¬cond0_1 i)
    (x0 : Vec F S1024x512 .bf16) (x1 : Vec F S1024x512 .bf16) (x2 : Vec F S1024x1 .f32) (x3 : Vec F S1x1024 .f32) : Vec F S8x128 .f32 :=
  VO0_4.read (Elt F) (VO0_4.writes (Elt F) VO0_4.junk (kernelRun0_B c i arg2 harg2 arg3 harg3 arg4 harg4 arg5 harg5 arg6 harg6 hc0 hc1 x0 x1 x2 x3).1)

/-- What this case leaves in the output's staging buffer: its pieces written over what the point before left. -/
def out0_C_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : ¬cond0_0 i) (hc1 : cond0_1 i)
    (x0 : Vec F S1024x512 .bf16) (x1 : Vec F S1024x512 .bf16) (x2 : Vec F S1024x1 .f32) (x3 : Vec F S1x1024 .f32) (xo : Vec F S8x128 .f32) : Vec F S8x128 .f32 :=
  arg6.view.read (Elt F) (arg6.view.writes (Elt F) (harg6.unread xo) (kernelRun0_C c i arg2 harg2 arg3 harg3 arg4 harg4 arg5 harg5 arg6 harg6 hc0 hc1 x0 x1 x2 x3 xo).1)

/-- What this case leaves in the output's staging buffer: its pieces written over what the point before left. -/
def out0_D_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : ¬cond0_0 i) (hc1 : ¬cond0_1 i)
    (x0 : Vec F S1024x512 .bf16) (x1 : Vec F S1024x512 .bf16) (x2 : Vec F S1024x1 .f32) (x3 : Vec F S1x1024 .f32) (xo : Vec F S8x128 .f32) : Vec F S8x128 .f32 :=
  arg6.view.read (Elt F) (arg6.view.writes (Elt F) (harg6.unread xo) (kernelRun0_D c i arg2 harg2 arg3 harg3 arg4 harg4 arg5 harg5 arg6 harg6 hc0 hc1 x0 x1 x2 x3 xo).1)

/-! ## What the output's staging buffer holds after each point -/

/-- After the body at position `n`: the case the closed forms select at `n`, run at the point's memrefs and input
    blocks; where the accumulator is not reset, over what this leaves at `n - 1`. -/
def outsAt0 (c : Dev nD) : (n : ℕ) → n < cfg0.N → Vec F S8x128 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) ((hcond0_1 ⟨0, hn⟩).mpr (show (0 : ℕ) / 4 = 0 % 4 from rfl)) (iblk m c 0 ⟨0, hn⟩) (iblk m c 1 ⟨0, hn⟩) (iblk m c 2 ⟨0, hn⟩) (iblk m c 3 ⟨0, hn⟩)
  | n + 1, hn =>
    if h0 : (n + 1) % 4 = 0 then
      if h1 : (n + 1) / 4 = (n + 1) % 4 then
        out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩)
      else
        out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) / 4 = (n + 1) % 4 then
        out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn))
      else
        out0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

theorem outsAt0_A (c : Dev nD) (t : Fin cfg0.N) (h0 : t.val % 4 = 0) (h1 : t.val / 4 = t.val % 4) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) ((hcond0_1 t).mpr h1) (iblk m c 0 t) (iblk m c 1 t) (iblk m c 2 t) (iblk m c 3 t) := by
  obtain ⟨n, hn⟩ := t
  cases n with
  | zero => exact rfl
  | succ n => exact (dif_pos h0).trans ((dif_pos h1).trans rfl)

theorem outsAt0_B (c : Dev nD) (t : Fin cfg0.N) (h0 : t.val % 4 = 0) (h1 : ¬t.val / 4 = t.val % 4) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk m c 0 t) (iblk m c 1 t) (iblk m c 2 t) (iblk m c 3 t) := by
  obtain ⟨n, hn⟩ := t
  cases n with
  | zero => exact absurd (show (0 : ℕ) / 4 = 0 % 4 from rfl) h1
  | succ n => exact (dif_pos h0).trans ((dif_neg h1).trans rfl)

theorem outsAt0_C (c : Dev nD) (t : Fin cfg0.N) (h0 : ¬t.val % 4 = 0) (h1 : t.val / 4 = t.val % 4) :
    outsAt0 m c t.val t.isLt = out0_C_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

theorem outsAt0_D (c : Dev nD) (t : Fin cfg0.N) (h0 : ¬t.val % 4 = 0) (h1 : ¬t.val / 4 = t.val % 4) :
    outsAt0 m c t.val t.isLt = out0_D_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

/-! ## The pipeline's proof data -/

/-- The proof data on core `c`: the arrays as the region finds them; after the body at point `t` each input's buffer
    at its block and the output's at `outsAt0`; the two windows on the cast matrix hold one half of it each, the
    other inputs all of theirs; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt0 m c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outsAt0 m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Where the accumulator is not reset the output's buffer holds what the body left at the point before: the point is
    not the first, and the buffer was not written back between. -/
theorem before0_4_carry (c : Dev nD) (t : Fin cfg0.N) (h0 : ¬t.val % 4 = 0) (d) :
    (dats m 0 c).before 4 t d = outsAt0 m c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h0 : t.val % 4 = 0
  · by_cases h1 : t.val / 4 = t.val % 4
    · rw [outsAt0_A m c t h0 h1]
      unfold out0_A_4
      iintro ⟨HΦ, Ho, ⟨%d0, H0⟩, ⟨%d1, H1⟩, ⟨%d2, H2⟩, ⟨%d3, H3⟩, ⟨%d4, H4⟩⟩
      iapply ((kernelRun0_A c (grid0.coords t) _ _ _ _ _ _ _ _ _ _ ((hcond0_0 t).mpr h0) ((hcond0_1 t).mpr h1) (iblk m c 0 t) (iblk m c 1 t) (iblk m c 2 t) (iblk m c 3 t)).2 Set.univ _)
      isplitl [H0]; · iexact H0
      isplitl [H1]; · iexact H1
      isplitl [H2]; · iexact H2
      isplitl [H3]; · iexact H3
      isplitl [H4]; · iexists _; iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _)
    · rw [outsAt0_B m c t h0 h1]
      unfold out0_B_4
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ ((hcond0_0 t).mpr h0) (fun h => h1 ((hcond0_1 t).mp h)) (iblk m c 0 t) (iblk m c 1 t) (iblk m c 2 t) (iblk m c 3 t)).2 Set.univ _)
      isplitl [H0]; · iexact H0
      isplitl [H1]; · iexact H1
      isplitl [H2]; · iexact H2
      isplitl [H3]; · iexact H3
      isplitl [H4]; · iexists _; iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _)
  · simp only [before0_4_carry m c t h0]
    by_cases h1 : t.val / 4 = t.val % 4
    · rw [outsAt0_C m c t h0 h1]
      unfold out0_C_4
      iintro ⟨HΦ, Ho, ⟨%d0, H0⟩, ⟨%d1, H1⟩, ⟨%d2, H2⟩, ⟨%d3, H3⟩, ⟨%d4, H4⟩⟩
      iapply ((kernelRun0_C c (grid0.coords t) _ _ _ _ _ _ _ _ _ _ (fun h => h0 ((hcond0_0 t).mp h)) ((hcond0_1 t).mpr h1) (iblk m c 0 t) (iblk m c 1 t) (iblk m c 2 t) (iblk m c 3 t) _).2 Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; rfl
    · rw [outsAt0_D m c t h0 h1]
      unfold out0_D_4
      iintro ⟨HΦ, Ho, ⟨%d0, H0⟩, ⟨%d1, H1⟩, ⟨%d2, H2⟩, ⟨%d3, H3⟩, ⟨%d4, H4⟩⟩
      iapply ((kernelRun0_D c (grid0.coords t) _ _ _ _ _ _ _ _ _ _ (fun h => h0 ((hcond0_0 t).mp h)) (fun h => h1 ((hcond0_1 t).mp h)) (iblk m c 0 t) (iblk m c 1 t) (iblk m c 2 t) (iblk m c 3 t) _).2 Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch1.lean ====
/-
  The region's entry: how the buffers a core holds when the region is entered make the arrays the pipeline wants.

  The region has five windows on FOUR arrays: windows 0 and 1 both read the matrix's cast, windows 2 and 3 read the two
  reshaped vectors of squared row lengths, window 4 writes the result. Each array is a whole buffer. The pipeline wants
  one points-to per window, at that window's share: the cast matrix's full share is cut into its left and right halves,
  one per reading window; the two vectors and the result are handed over whole.
-/
import proofs.«133118_j73297911873997_2_alg».proof.Proof.K.Entry

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, one by one: the matrix's cast, the two reshaped row-length vectors, the result. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v4) ↦{fullShare} V main_v4) ∗ (((c : Thread nD τ).loc main_v2) ↦{fullShare} V main_v2)
          ∗ (((c : Thread nD τ).loc main_v3) ↦{fullShare} V main_v3) ∗ (((c : Thread nD τ).loc main_v5) ↦{fullShare} V main_v5)) := by
  unfold Pipeline.arrBufs
  exact bigSep_eq_bigSepL_of_eq [main_v4, main_v2, main_v3, main_v5] (by decide) (by decide) _

/-- The five windows' arrays one by one, each a whole buffer at the window's share: windows 0 and 1 both on the cast matrix. -/
theorem arrays0_eq (c : Dev nD) (dat : Dat τ (Elt F) Unit ℕ (UR sig nD τ) ℕ cfg0 c)
    (G : (w : Fin cfg0.W) → Buf (Elt F) ((cfg0.win w).arr.view.loc (c : Thread nD τ))) :
    (dat.arrays G : sProp 𝕄) = iprop((((c : Thread nD τ).loc main_v4) ↦{dat.share 0} G 0) ∗ (((c : Thread nD τ).loc main_v4) ↦{dat.share 1} G 1)
          ∗ (((c : Thread nD τ).loc main_v2) ↦{dat.share 2} G 2) ∗ (((c : Thread nD τ).loc main_v3) ↦{dat.share 3} G 3)
          ∗ (((c : Thread nD τ).loc main_v5) ↦{dat.share 4} G 4)) := by
  unfold Dat.arrays
  rw [bigSep_W0]
  rw [(arr_whole0 0).set_eq_univ, (arr_whole0 2).set_eq_univ, (arr_whole0 3).set_eq_univ, (arr_whole0 4).set_eq_univ]

theorem share0 (c : Dev nD) (dat : Dat τ (Elt F) Unit ℕ (UR sig nD τ) ℕ cfg0 c) : dat.share 0 = dat.q 0 := if_neg (by decide)
theorem share1 (c : Dev nD) (dat : Dat τ (Elt F) Unit ℕ (UR sig nD τ) ℕ cfg0 c) : dat.share 1 = dat.q 1 := if_neg (by decide)
theorem share2 (c : Dev nD) (dat : Dat τ (Elt F) Unit ℕ (UR sig nD τ) ℕ cfg0 c) : dat.share 2 = dat.q 2 := if_neg (by decide)
theorem share3 (c : Dev nD) (dat : Dat τ (Elt F) Unit ℕ (UR sig nD τ) ℕ cfg0 c) : dat.share 3 = dat.q 3 := if_neg (by decide)
theorem share4 (c : Dev nD) (dat : Dat τ (Elt F) Unit ℕ (UR sig nD τ) ℕ cfg0 c) : dat.share 4 = fullShare := if_pos (by decide)

/-- At the region's entry the buffers behind the arrays make the pipeline's arrays: the cast matrix's full share is cut
    into its two halves, one for each of the two windows that read it; the other three pass whole. -/
theorem hsplit (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (hA : ∀ w, dat.A w = V m c (Pipeline.arrRef spec0 w)) :
    (Pipeline.arrBufs (Ix := Unit) (Name := ℕ) (U := UR sig nD τ) (Lvl := ℕ) spec0 c (V m c) : sProp 𝕄) ⊢ dat.arrays (dat.arrAt · 0) := by
  rw [arrBufs0_eq, arrays0_eq, share0, share1, share2, share3, share4, hq0, hq1, hq2, hq3]
  show _ ⊢ iprop((_ ↦{_} dat.A 0) ∗ (_ ↦{_} dat.A 1) ∗ (_ ↦{_} dat.A 2) ∗ (_ ↦{_} dat.A 3) ∗ (_ ↦{_} dat.A 4))
  rw [hA 0, hA 1, hA 2, hA 3, hA 4]
  iintro ⟨H4, H2, H3, H5⟩
  ihave H4' := (pointsTo_share (PosShare.mem_left_op_right fullShare)).1 $$ H4
  icases H4' with ⟨H4l, H4r⟩
  isplitl [H4l]; · iexact H4l
  isplitl [H4r]; · iexact H4r
  isplitl [H2]; · iexact H2
  isplitl [H3]; · iexact H3
  iexact H5

end Cert.Kernel.Hand

end
-- ==== Proof.K.Launch2.lean ====
/-
  The region's exit: the four operations that follow the region — a zero constant, the sum of the result array's
  entries, the constant 16773120 (the number of ordered pairs of distinct rows, 4096 · 4095), and their quotient — run
  from what the region leaves.

  They touch five buffers only: the result array, which they read, and the four buffers they write. At the region's exit
  the result array holds what the pipeline computed and every other buffer what it held at the entry (`exitVal`). The
  result array's points-to is taken out of the pipeline's arrays, the four written buffers' out of the buffers that
  bypass the region; the five are run through the operations as one held set; then the result array, which no operation
  writes, goes back among the arrays unchanged, and the bypassing buffers are handed back at their contents after the
  operations (`endVal`). The other four windows' points-tos are not touched.
-/
import proofs.«133118_j73297911873997_2_alg».proof.Proof.K.Launch1

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The device buffers the four later operations touch: the result, the two constants, the sum, the quotient. -/
def tailList : List (DevRef τ sig) :=
  [Proc.devRef .tc main_v5, Proc.devRef .tc main_cst_0, Proc.devRef .tc main_v6, Proc.devRef .tc main_cst_1, Proc.devRef .tc main_v7]

theorem tailList_nodup : tailList.Nodup := by decide

/-- The core's buffer contents at the region's exit: the result array at `X`, every other buffer as at the entry. -/
def exitVal (c : Dev nD) (X : Buf (Elt F) ((c : Thread nD τ).loc main_v5)) : Valuation τ sig (Elt F) :=
  Function.update (V0 m c) (Proc.devRef .tc main_v5) X

theorem exitVal_v5 (c : Dev nD) (X : Buf (Elt F) ((c : Thread nD τ).loc main_v5)) :
    exitVal m c X (Proc.devRef .tc main_v5) = X := Function.update_self ..

theorem exitVal_of_ne (c : Dev nD) (X : Buf (Elt F) ((c : Thread nD τ).loc main_v5)) (b : Ref sig .tc) (hb : b ≠ main_v5) :
    exitVal m c X (Proc.devRef .tc b) = V m c b :=
  Function.update_of_ne (StableHlo.devRef_ne_of_ne hb) ..

/-- The five buffers held whole at a valuation, one by one. -/
theorem held_tail (c : Dev nD) (W : Valuation τ sig (Elt F)) :
    (StableHlo.held (c : Thread nD τ) tailList.toFinset W : sProp 𝕄)
      = iprop((((c : Thread nD τ).loc main_v5) ↦{fullShare} W (Proc.devRef .tc main_v5)) ∗ (((c : Thread nD τ).loc main_cst_0) ↦{fullShare} W (Proc.devRef .tc main_cst_0))
          ∗ (((c : Thread nD τ).loc main_v6) ↦{fullShare} W (Proc.devRef .tc main_v6)) ∗ (((c : Thread nD τ).loc main_cst_1) ↦{fullShare} W (Proc.devRef .tc main_cst_1))
          ∗ (((c : Thread nD τ).loc main_v7) ↦{fullShare} W (Proc.devRef .tc main_v7))) := by
  unfold StableHlo.held
  exact bigSep_eq_bigSepL tailList tailList_nodup _

/-- Each of the four later operations touches only those five buffers. -/
theorem hostOps1_bufs : ∀ ops ∈ [(hostOps1 : List (HloOp τ sig (Elt F)))], ∀ op ∈ ops, op.bufs ⊆ tailList.toFinset := by
  intro ops hops op hop
  rw [List.mem_singleton] at hops; subst hops
  simp only [List.mem_cons, List.mem_nil_iff, or_false] at hop
  rcases hop with rfl | rfl | rfl | rfl
  · rw [StableHlo.nullary_bufs]; decide
  · rw [StableHlo.binary_bufs]; decide
  · rw [StableHlo.nullary_bufs]; decide
  · rw [StableHlo.binary_bufs]; decide

theorem hostOps1_fresh' : ∀ ops ∈ [(hostOps1 : List (HloOp τ sig (Elt F)))], ∀ op ∈ ops, op.fresh = ∅ := by
  intro ops hops op hop
  rw [List.mem_singleton] at hops; subst hops
  exact (List.forall_iff_forall_mem.mp hostOps1_fresh) op hop

/-- A buffer that is none of the four results is written by none of the four later operations. -/
theorem not_written1 (b : Ref sig .tc) (hb : b ≠ main_cst_0 ∧ b ≠ main_v6 ∧ b ≠ main_cst_1 ∧ b ≠ main_v7) :
    ∀ op ∈ (hostOps1 : List (HloOp τ sig (Elt F))), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.binary_writes, StableHlo.nullary_writes, Finset.mem_singleton] <;>
    exact StableHlo.devRef_ne_of_ne ‹_›

/-- So it holds after them what it held before. -/
theorem after1_of_ne (W : Valuation τ sig (Elt F)) (b : Ref sig .tc) (hb : b ≠ main_cst_0 ∧ b ≠ main_v6 ∧ b ≠ main_cst_1 ∧ b ≠ main_v7) :
    StableHlo.after hostOps1 W (Proc.devRef .tc b) = W (Proc.devRef .tc b) :=
  StableHlo.after_of_forall_not_mem hostOps1 W (not_written1 b hb)

/-- What a TensorCore buffer holds after the four later operations, run from the region's exit. -/
def endVal (c : Dev nD) (X : Buf (Elt F) ((c : Thread nD τ).loc main_v5)) (b : Ref sig .tc) : Buf (Elt F) ((c : Thread nD τ).loc b) :=
  StableHlo.after hostOps1 (exitVal m c X) (Proc.devRef .tc b)

-- a rule stated for any thread, applied at the TensorCore thread, unifies only when unification may unfold plain
-- definitions in a metavariable's type
set_option backward.isDefEq.respectTransparency.types false in
/-- THE LINES AFTER THE REGION: from the boundary, the pipeline's arrays at their final contents and the bypassing buffers
    at their entry contents, the four operations run and hand back the arrays as they were and the bypassing buffers at
    `endVal`. -/
theorem htail (𝒱₀ : Variants) (c : Dev nD) (dat : Dat τ (Elt F) Unit ℕ (UR sig nD τ) ℕ cfg0 c) (Q' : PUnit → sProp 𝕄) :
    iprop((iprop(dat.arrays (dat.arrAt · cfg0.N) ∗ Pipeline.unscopedRest (Ix := Unit) (Name := ℕ) (U := UR sig nD τ) (Lvl := ℕ) spec0 c (endVal m c (dat.arrAt 4 cfg0.N))) -∗ Q' ⟨⟩)
        ∗ boundary (c : Thread nD τ) ∗ dat.arrays (dat.arrAt · cfg0.N) ∗ Pipeline.unscopedRest (Ix := Unit) (Name := ℕ) (U := UR sig nD τ) (Lvl := ℕ) spec0 c (V m c))
      ⊢ wp frame (wpE (Pipeline.defs (pcfgs (F := F)) defs₀) (Variants.lift 𝒱₀) (c : Thread nD τ) none) Set.univ (Pipeline.chain [StableHlo.seq hostOps1]) Q' := by
  have h := Pipeline.wp_seqs_then (Ix := Unit) (Name := ℕ) (U := UR sig nD τ) (Lvl := ℕ) (pcfgs (F := F)) defs₀ 𝒱₀ c tailList.toFinset [] [hostOps1]
    hostOps1_bufs hostOps1_fresh' (exitVal m c (dat.arrAt 4 cfg0.N)) (K := Q')
  rw [held_tail, held_tail, show ([hostOps1] : List (List (HloOp τ sig (Elt F)))).flatten = hostOps1 from List.append_nil _,
    exitVal_v5, exitVal_of_ne m c _ main_cst_0 (by decide), exitVal_of_ne m c _ main_v6 (by decide),
    exitVal_of_ne m c _ main_cst_1 (by decide), exitVal_of_ne m c _ main_v7 (by decide),
    after1_of_ne _ main_v5 (by decide), exitVal_v5, Pipeline.chain_nil, wp_pure] at h
  rw [arrays0_eq, share4, unscopedRest0_eq, unscopedRest0_eq]
  simp only [endVal]
  rw [after1_of_ne _ main_arg0 (by decide), after1_of_ne _ main_v0 (by decide), after1_of_ne _ main_cst (by decide),
    after1_of_ne _ main_v1 (by decide), exitVal_of_ne m c _ main_arg0 (by decide), exitVal_of_ne m c _ main_v0 (by decide),
    exitVal_of_ne m c _ main_cst (by decide), exitVal_of_ne m c _ main_v1 (by decide)]
  iintro ⟨Hk, Hb, ⟨Ha0, Ha1, Ha2, Ha3, Ha4⟩, ⟨Harg0, Hv0, Hcst, Hv1, Hcst0, Hv6, Hcst1, Hv7⟩⟩
  iapply h $$ [Hb Ha4 Hcst0 Hv6 Hcst1 Hv7]
  · isplitl [Hb]; · iexact Hb
    isplitl [Ha4]; · iexact Ha4
    isplitl [Hcst0]; · iexact Hcst0
    isplitl [Hv6]; · iexact Hv6
    isplitl [Hcst1]; · iexact Hcst1
    iexact Hv7
  iintro ⟨Hb, Ha4, Hcst0, Hv6, Hcst1, Hv7⟩
  imodintro
  iapply Hk
  isplitl [Ha0 Ha1 Ha2 Ha3 Ha4]
  · isplitl [Ha0]; · iexact Ha0
    isplitl [Ha1]; · iexact Ha1
    isplitl [Ha2]; · iexact Ha2
    isplitl [Ha3]; · iexact Ha3
    iexact Ha4
  isplitl [Harg0]; · iexact Harg0
  isplitl [Hv0]; · iexact Hv0
  isplitl [Hcst]; · iexact Hcst
  isplitl [Hv1]; · iexact Hv1
  isplitl [Hcst0]; · iexact Hcst0
  isplitl [Hv6]; · iexact Hv6
  isplitl [Hcst1]; · iexact Hcst1
  iexact Hv7

end Cert.Kernel.Hand

end
-- ==== Proof.K.Launch.lean ====
/-
  The run of the kernel's program around its one region, from abstract proof data for the region's body.

  The program is six operations, the region (a 4 × 4 grid, five windows on four arrays), four operations. The library's
  launch theorem for a region continued by later lines is instantiated at: the entry split of the buffers behind the
  arrays into one points-to per window (the cast matrix's halves for its two reading windows); the body's invariant
  being the core's scoped rest and its generator register at every point; the lines after the region run from the
  region's exit contents; and a final reading of two buffers that bypass the region — the quotient's, which holds what
  the four later operations compute from the result array the pipeline leaves, and the argument's, which no operation
  writes and the region does not see, so that it ends as it was launched.
-/
import proofs.«133118_j73297911873997_2_alg».proof.Proof.K.Launch2

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that is none of the six results of the earlier operations is written by none of them. -/
theorem not_written0 (b : Ref sig .tc) (hb : b ≠ main_v0 ∧ b ≠ main_cst ∧ b ≠ main_v1 ∧ b ≠ main_v2 ∧ b ≠ main_v3 ∧ b ≠ main_v4) :
    ∀ op ∈ List.flatten [(hostOps0 : List (HloOp τ sig (Elt F)))], Proc.devRef .tc b ∉ op.writes := by
  obtain ⟨h0, h1, h2, h3, h4, h5⟩ := hb
  intro op hop
  simp only [List.flatten_cons, List.flatten_nil, List.append_nil, List.mem_cons, List.mem_nil_iff, or_false] at hop
  rcases hop with rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- The argument reaches the region as launched, -/
theorem V_arg0 (c : Dev nD) : V m c main_arg0 = m ((c : Thread nD τ).loc main_arg0) :=
  StableHlo.after_of_forall_not_mem (b := Proc.devRef .tc main_arg0) _ _ (not_written0 main_arg0 (by decide))

/-- and the end: no operation before or after the region writes it, and the region does not see it. -/
theorem endVal_arg0 (c : Dev nD) (X : Buf (Elt F) ((c : Thread nD τ).loc main_v5)) :
    endVal m c X main_arg0 = m ((c : Thread nD τ).loc main_arg0) := by
  unfold endVal
  rw [after1_of_ne _ main_arg0 (by decide), exitVal_of_ne m c X main_arg0 (by decide), V_arg0]

/-- The final state's quotient buffer and argument buffer, read off the bypassing buffers' points-tos. -/
theorem hY (c : Dev nD) (X : Buf (Elt F) ((c : Thread nD τ).loc main_v5)) (s' : Phys nD τ sig (Elt F)) :
    iprop((∃ r, prngReg c r) ∗ Pipeline.unscopedRest (Ix := Unit) (Name := ℕ) (U := UR sig nD τ) (Lvl := ℕ) spec0 c (endVal m c X) ∗ SI s')
      ⊢ |={Set.univ}=> iprop(⌜s'.mem.mem ((c : Thread nD τ).loc main_v7) = endVal m c X main_v7
            ∧ s'.mem.mem ((c : Thread nD τ).loc main_arg0) = m ((c : Thread nD τ).loc main_arg0)⌝ ∗ (SI s' : sProp 𝕄)) := by
  rw [unscopedRest0_eq, endVal_arg0]
  iintro ⟨-, ⟨Harg0, -, -, -, -, -, -, Hv7⟩, HSI⟩
  icombine HSI Harg0 gives %h0
  icombine HSI Hv7 gives %h7
  imodintro
  isplitr; · ipureintro; exact ⟨Buf.eq_of_forall_mem_univ h7, Buf.eq_of_forall_mem_univ h0⟩
  iexact HSI

-- the launch theorem's implicit arguments are found by unifying its conclusion with this one, which takes unfolding
-- plain definitions in a metavariable's type
set_option backward.isDefEq.respectTransparency.types false in
/-- THE RUN around the region, from abstract proof data for its body: every weakly fair execution of the program from a
    launch memory terminates without a fault, and at the end the quotient's buffer holds what the four later operations
    compute from the result array the pipeline leaves, and the argument's buffer is unchanged. -/
theorem run_around
    (dats : (p : Fin 1) → (c : Dev nD) → Pipeline.Dat τ (Elt F) Unit ℕ (UR sig nD τ) ℕ (cfgs p) c)
    (hbody : ∀ c, Pipeline.BodyObligationLoose (dats 0 c) defs₀ Variants.none () Set.univ)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (howed : ∀ c t, (dats 0 c).owed t = 0)
    (hA : ∀ c w, (dats 0 c).A w = V m c (Pipeline.arrRef spec0 w))
    (hΦ : ∀ c t, (dats 0 c).Φ t = Pipeline.ΦA spec0 c) :
    θ_run defs (onTc (τ := τ) (main (F := F))) (s₀ m ρ) (fun r => ∀ c : Dev nD,
        r.2.mem ((c : Thread nD τ).loc main_v7)
            = StableHlo.after hostOps1 (Function.update (V0 m c) (Proc.devRef .tc main_v5) ((dats 0 c).arrAt 4 cfg0.N)) (Proc.devRef .tc main_v7)
        ∧ r.2.mem ((c : Thread nD τ).loc main_arg0) = m ((c : Thread nD τ).loc main_arg0)) :=
  Pipeline.θ_run_region_pf_tail (fun q => (cfgs q).toPCfg (Val := Elt F)) (fun q => (cfgs q).toPCfg_adm) dats () cellOf_inj (0 : Fin 1) winFacts₀0
    (Pipeline.OwnSemFacts.none spec0) (Pipeline.PreFacts.none spec0) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit m c (dats 0 c) (hq0 c) (hq1 c) (hq2 c) (hq3 c) (hA c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (endVal m c ((dats 0 c).arrAt 4 cfg0.N)))
    (hX := fun c => by
      rw [Pipeline.unscopedRestP_none]
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr] <;> iassumption)
    (hout := fun c => by
      rw [hΦ, Pipeline.ownSems0_none]; unfold Pipeline.ΦA
      iintro ⟨Hr, Hp⟩
      isplitl [Hp]; · iexact Hp
      isplitr; · iempintro
      iexact Hr)
    (htail := fun c Q' => htail m Variants.none c (dats 0 c) Q')
    (QY := fun c s => s.mem ((c : Thread nD τ).loc main_v7) = endVal m c ((dats 0 c).arrAt 4 cfg0.N) main_v7
        ∧ s.mem ((c : Thread nD τ).loc main_arg0) = m ((c : Thread nD τ).loc main_arg0))
    (hY := fun c s' => hY m c _ s')
    (hQ := fun s h c => (h c).2.2)

end Cert.Kernel.Hand

end
-- ==== Proof.K.Run.lean ====
/-
  The kernel program's run: every weakly fair execution terminates, nothing faulting; the result buffer ends at the
  four later host operations' value of the output array the pipeline leaves, and the argument array ends unchanged.
-/
import proofs.«133118_j73297911873997_2_alg».proof.Proof.K.Body
import proofs.«133118_j73297911873997_2_alg».proof.Proof.K.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, for the proof data of the body obligation. -/
theorem run_main : θ_run defs (onTc (τ := τ) (main (F := F))) (s₀ m ρ) (fun r => ∀ c : Dev nD,
    r.2.mem ((c.tc : Thread nD τ).loc main_v7)
        = StableHlo.after hostOps1 (Function.update (V0 m c) (Proc.devRef .tc main_v5) ((dats m 0 c).arrAt 4 cfg0.N)) (Proc.devRef .tc main_v7)
    ∧ r.2.mem ((c.tc : Thread nD τ).loc main_arg0) = m ((c.tc : Thread nD τ).loc main_arg0)) :=
  run_around m ρ (dats m) (fun c => (body_obligation m c).loose) (fun _ => rfl) (fun _ => rfl) (fun _ => rfl) (fun _ => rfl)
    (fun _ _ => rfl) (A_eq m) (fun _ _ => rfl)

/-- The frame: the program runs and leaves its argument array as it found it. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c).2) (run_main m ρ)

end Cert.Kernel.Hand

end
-- ==== Proof.KI.Entry.lean ====
/-
  The idealized kernel's program around its one region: the six host operations before it (the squared row lengths,
  their two reshapes, the cast of the matrix), the region, the four host operations after it (the sum of the result
  blocks and the division by the number of ordered pairs). What every TensorCore buffer holds when the region is
  entered (`V`), that the program reduces to the region continued by the later operations (`hmain`), and a window's
  block at a grid point read off the array the region finds (`iblk`).
-/
import proofs.«133118_j73297911873997_2_alg».proof.Proof.Gen.KernelIdeal.Launch
import proofs.«133118_j73297911873997_2_alg».proof.Proof.Gen.KernelIdeal.Skeleton
import proofs.«133118_j73297911873997_2_alg».proof.Proof.Gen.KernelIdeal.Points
import Idealize.ShloMosaic.Lib.Pipeline.FrameSuffix
import Idealize.ShloMosaic.Lib.Pipeline.FrameBody

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s TensorCore buffer contents when the region is entered, as a valuation: after the six host operations
    before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

/-- The program reduces to the region continued by the four later operations, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (List.forall_iff_forall_mem.mpr fun ops hops => by rw [List.mem_singleton] at hops; subst hops; exact hostOps0_sub)
    (List.forall_iff_forall_mem.mpr fun ops hops => by rw [List.mem_singleton] at hops; subst hops; exact hostOps0_fresh) main_chain

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KI.Runs.lean ====
/-
  What the runs of the kernel body share: what each input window's staging buffer holds when the body runs (its
  block, fetched at the point or not), the body's two branch conditions as functions of the grid point — the
  column coordinate is zero (the accumulator is reset), the two coordinates are equal (a diagonal tile) — decided
  over the 16 points in closed form, and the staging memrefs the pipeline hands the body at a point.
-/
import proofs.«133118_j73297911873997_2_alg».proof.Proof.KI.Entry
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Input window 0's current staging buffer holds its block at every point, fetched there or not, for any proof data
    whose array is the region-entry one and whose body leaves the block in place: unfetched, the block index has
    not moved since the fetch. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry one and whose body leaves the block in place: unfetched, the block index has
    not moved since the fetch. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry one and whose body leaves the block in place: unfetched, the block index has
    not moved since the fetch. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry one and whose body leaves the block in place: unfetched, the block index has
    not moved since the fetch. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first conditional's condition: the column coordinate of the grid point is zero. -/
abbrev cond0_0 (i : grid0.Coords) : Prop := (Scalar.cmpi .ne (Scalar.extui (Scalar.cmpi .eq (BitVec.ofNat 32 (i 1).val) 0#32)) 0#32) = 1#1
/-- It holds at the points 0, 4, 8, 12. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second conditional's condition: the two coordinates of the grid point are equal. -/
abbrev cond0_1 (i : grid0.Coords) : Prop := (Scalar.cmpi .ne (Scalar.extui (Scalar.cmpi .eq (BitVec.ofNat 32 (i 0).val) (BitVec.ofNat 32 (i 1).val))) 0#32) = 1#1
/-- It holds at the points 0, 5, 10, 15. -/
theorem hcond0_1 : ∀ t : Fin cfg0.N, cond0_1 (grid0.coords t) ↔ t.val / 4 = t.val % 4 :=
  (by decide +kernel : ∀ t : Fin grid0.N, cond0_1 (grid0.coords t) ↔ t.val / 4 = t.val % 4)

/-! ## The staging memrefs at a point -/

/-- One staging buffer of the output window, through which its contents are stated. -/
abbrev VO0_4 : View sig .tc .vmem S8x128 .f32 := (Memref.whole cc0_stg4_0 : Memref sig .tc .vmem S8x128 .f32).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)

end Cert.KernelIdeal.Hand

end
-- ==== Proof.KI.RunA.lean ====
/-
  The kernel body run whole at a grid point whose column coordinate is zero and whose coordinates are equal (the
  first point): the accumulator block is reset, the tile's closed-form sum is added to its first cell, and the
  diagonal's correction is taken off it.
-/
import proofs.«133118_j73297911873997_2_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref, as pieces (last first), in the case named in the
    module's header, with the proof that on whole staging memrefs — the inputs' at their contents, the output's at
    anything — the body runs to the continuation holding the inputs' as they were and the output's buffer with
    the pieces written. The pieces are the witness the run finds. -/
noncomputable def kernelRun0_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : cond0_0 i) (hc1 : cond0_1 i)
    (x0 : Vec F S1024x512 .bf16) (x1 : Vec F S1024x512 .bf16) (x2 : Vec F S1024x1 .f32) (x3 : Vec F S1x1024 .f32) :
    { L4 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__pairwise_kernel i arg2 harg2 arg3 harg3 arg4 harg4 arg5 harg5 arg6 harg6) K } := by
  refine ⟨?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KI.RunB.lean ====
/-
  The kernel body run whole at a grid point whose column coordinate is zero and whose coordinates differ (points 4,
  8, 12): the accumulator block is reset and the tile's closed-form sum is added to its first cell.
-/
import proofs.«133118_j73297911873997_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref, as pieces (last first), in the case named in the
    module's header, with the proof that on whole staging memrefs — the inputs' at their contents, the output's at
    anything — the body runs to the continuation holding the inputs' as they were and the output's buffer with
    the pieces written. The pieces are the witness the run finds. -/
noncomputable def kernelRun0_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : cond0_0 i) (hc1 : ¬cond0_1 i)
    (x0 : Vec F S1024x512 .bf16) (x1 : Vec F S1024x512 .bf16) (x2 : Vec F S1024x1 .f32) (x3 : Vec F S1x1024 .f32) :
    { L4 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__pairwise_kernel i arg2 harg2 arg3 harg3 arg4 harg4 arg5 harg5 arg6 harg6) K } := by
  refine ⟨?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Hand

end
-- ==== Proof.KI.RunC.lean ====
/-
  The kernel body run whole at a grid point whose column coordinate is not zero and whose coordinates are equal
  (points 5, 10, 15): the tile's closed-form sum is added to the first cell of the accumulator block the point
  before left, and the diagonal's correction is taken off it.
-/
import proofs.«133118_j73297911873997_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref, as pieces (last first), in the case named in the
    module's header, with the proof that on whole staging memrefs — the inputs' at their contents, the output's at
    the running contents `xo` the point before left — the body runs to the continuation holding the inputs' as they
    were and the output's buffer at `xo` with the pieces written over it. The pieces are the witness the run finds. -/
noncomputable def kernelRun0_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : ¬cond0_0 i) (hc1 : cond0_1 i)
    (x0 : Vec F S1024x512 .bf16) (x1 : Vec F S1024x512 .bf16) (x2 : Vec F S1024x1 .f32) (x3 : Vec F S1x1024 .f32) (xo : Vec F S8x128 .f32) :
    { L4 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread xo) L4)) -∗ K ⟨⟩))
          ⊢ wp frame (wpE (defs₀ (F := F)) Variants.none c none) E (cc0__pairwise_kernel i arg2 harg2 arg3 harg3 arg4 harg4 arg5 harg5 arg6 harg6) K } := by
  refine ⟨?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexact H4

end Cert.KernelIdeal.Hand

end
-- ==== Proof.KI.RunD.lean ====
/-
  The kernel body run whole at a grid point whose column coordinate is not zero and whose coordinates differ (the
  other nine points): the tile's closed-form sum is added to the first cell of the accumulator block the point
  before left.
-/
import proofs.«133118_j73297911873997_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in the output's staging memref, as pieces (last first), in the case named in the
    module's header, with the proof that on whole staging memrefs — the inputs' at their contents, the output's at
    the running contents `xo` the point before left — the body runs to the continuation holding the inputs' as they
    were and the output's buffer at `xo` with the pieces written over it. The pieces are the witness the run finds. -/
noncomputable def kernelRun0_D (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : ¬cond0_0 i) (hc1 : ¬cond0_1 i)
    (x0 : Vec F S1024x512 .bf16) (x1 : Vec F S1024x512 .bf16) (x2 : Vec F S1024x1 .f32) (x3 : Vec F S1x1024 .f32) (xo : Vec F S8x128 .f32) :
    { L4 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread xo) L4)) -∗ K ⟨⟩))
          ⊢ wp frame (wpE (defs₀ (F := F)) Variants.none c none) E (cc0__pairwise_kernel i arg2 harg2 arg3 harg3 arg4 harg4 arg5 harg5 arg6 harg6) K } := by
  refine ⟨?_, fun E K => ?run⟩
  case run =>
    simp only [cc0__pairwise_kernel_eq_skeleton]; unfold cc0__pairwise_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexact H4

end Cert.KernelIdeal.Hand

end
-- ==== Proof.KI.Body.lean ====
/-
  The pipeline's proof data for the kernel and its body obligation. The output block of row block i is carried in
  its staging buffer across the four points of that row: reset at the first (column coordinate zero), added to at
  each, corrected at the diagonal one, written back after the fourth. `outsAt0` says what the buffer holds after
  each point by recursion on the point; the inputs' buffers hold their blocks.
-/
import proofs.«133118_j73297911873997_2_alg».proof.Proof.KI.RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In this case the first store writes the whole block, so the pieces cover it. -/
theorem cover0_A_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : cond0_0 i) (hc1 : cond0_1 i)
    (x0 : Vec F S1024x512 .bf16) (x1 : Vec F S1024x512 .bf16) (x2 : Vec F S1024x1 .f32) (x3 : Vec F S1x1024 .f32) (y : S8x128.Idx) :
    ∃ pc ∈ (kernelRun0_A c i arg2 harg2 arg3 harg3 arg4 harg4 arg5 harg5 arg6 harg6 hc0 hc1 x0 x1 x2 x3).1, y ∈ pc.1.set :=
  View.cover_of_wholeMem (kernelRun0_A c i arg2 harg2 arg3 harg3 arg4 harg4 arg5 harg5 arg6 harg6 hc0 hc1 x0 x1 x2 x3).1 (by sl_whole_mem) y

/-- What this case leaves in the output's staging buffer: its pieces read back (over anything: they cover). -/
def out0_A_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : cond0_0 i) (hc1 : cond0_1 i)
    (x0 : Vec F S1024x512 .bf16) (x1 : Vec F S1024x512 .bf16) (x2 : Vec F S1024x1 .f32) (x3 : Vec F S1x1024 .f32) : Vec F S8x128 .f32 :=
  VO0_4.read (Elt F) (VO0_4.writes (Elt F) VO0_4.junk (kernelRun0_A c i arg2 harg2 arg3 harg3 arg4 harg4 arg5 harg5 arg6 harg6 hc0 hc1 x0 x1 x2 x3).1)

/-- In this case the first store writes the whole block, so the pieces cover it. -/
theorem cover0_B_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : cond0_0 i) (hc1 : ¬cond0_1 i)
    (x0 : Vec F S1024x512 .bf16) (x1 : Vec F S1024x512 .bf16) (x2 : Vec F S1024x1 .f32) (x3 : Vec F S1x1024 .f32) (y : S8x128.Idx) :
    ∃ pc ∈ (kernelRun0_B c i arg2 harg2 arg3 harg3 arg4 harg4 arg5 harg5 arg6 harg6 hc0 hc1 x0 x1 x2 x3).1, y ∈ pc.1.set :=
  View.cover_of_wholeMem (kernelRun0_B c i arg2 harg2 arg3 harg3 arg4 harg4 arg5 harg5 arg6 harg6 hc0 hc1 x0 x1 x2 x3).1 (by sl_whole_mem) y

/-- What this case leaves in the output's staging buffer: its pieces read back (over anything: they cover). -/
def out0_B_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : cond0_0 i) (hc1 : ¬cond0_1 i)
    (x0 : Vec F S1024x512 .bf16) (x1 : Vec F S1024x512 .bf16) (x2 : Vec F S1024x1 .f32) (x3 : Vec F S1x1024 .f32) : Vec F S8x128 .f32 :=
  VO0_4.read (Elt F) (VO0_4.writes (Elt F) VO0_4.junk (kernelRun0_B c i arg2 harg2 arg3 harg3 arg4 harg4 arg5 harg5 arg6 harg6 hc0 hc1 x0 x1 x2 x3).1)

/-- What this case leaves in the output's staging buffer: its pieces written over what the point before left. -/
def out0_C_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : ¬cond0_0 i) (hc1 : cond0_1 i)
    (x0 : Vec F S1024x512 .bf16) (x1 : Vec F S1024x512 .bf16) (x2 : Vec F S1024x1 .f32) (x3 : Vec F S1x1024 .f32) (xo : Vec F S8x128 .f32) : Vec F S8x128 .f32 :=
  arg6.view.read (Elt F) (arg6.view.writes (Elt F) (harg6.unread xo) (kernelRun0_C c i arg2 harg2 arg3 harg3 arg4 harg4 arg5 harg5 arg6 harg6 hc0 hc1 x0 x1 x2 x3 xo).1)

/-- What this case leaves in the output's staging buffer: its pieces written over what the point before left. -/
def out0_D_4 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : ¬cond0_0 i) (hc1 : ¬cond0_1 i)
    (x0 : Vec F S1024x512 .bf16) (x1 : Vec F S1024x512 .bf16) (x2 : Vec F S1024x1 .f32) (x3 : Vec F S1x1024 .f32) (xo : Vec F S8x128 .f32) : Vec F S8x128 .f32 :=
  arg6.view.read (Elt F) (arg6.view.writes (Elt F) (harg6.unread xo) (kernelRun0_D c i arg2 harg2 arg3 harg3 arg4 harg4 arg5 harg5 arg6 harg6 hc0 hc1 x0 x1 x2 x3 xo).1)

/-! ## What the output's staging buffer holds after each point -/

/-- After the body at position `n`: the case the closed forms select at `n`, run at the point's memrefs and input
    blocks; where the accumulator is not reset, over what this leaves at `n - 1`. -/
def outsAt0 (c : Dev nD) : (n : ℕ) → n < cfg0.N → Vec F S8x128 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) ((hcond0_1 ⟨0, hn⟩).mpr (show (0 : ℕ) / 4 = 0 % 4 from rfl)) (iblk m c 0 ⟨0, hn⟩) (iblk m c 1 ⟨0, hn⟩) (iblk m c 2 ⟨0, hn⟩) (iblk m c 3 ⟨0, hn⟩)
  | n + 1, hn =>
    if h0 : (n + 1) % 4 = 0 then
      if h1 : (n + 1) / 4 = (n + 1) % 4 then
        out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩)
      else
        out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) / 4 = (n + 1) % 4 then
        out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn))
      else
        out0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

theorem outsAt0_A (c : Dev nD) (t : Fin cfg0.N) (h0 : t.val % 4 = 0) (h1 : t.val / 4 = t.val % 4) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) ((hcond0_1 t).mpr h1) (iblk m c 0 t) (iblk m c 1 t) (iblk m c 2 t) (iblk m c 3 t) := by
  obtain ⟨n, hn⟩ := t
  cases n with
  | zero => exact rfl
  | succ n => exact (dif_pos h0).trans ((dif_pos h1).trans rfl)

theorem outsAt0_B (c : Dev nD) (t : Fin cfg0.N) (h0 : t.val % 4 = 0) (h1 : ¬t.val / 4 = t.val % 4) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk m c 0 t) (iblk m c 1 t) (iblk m c 2 t) (iblk m c 3 t) := by
  obtain ⟨n, hn⟩ := t
  cases n with
  | zero => exact absurd (show (0 : ℕ) / 4 = 0 % 4 from rfl) h1
  | succ n => exact (dif_pos h0).trans ((dif_neg h1).trans rfl)

theorem outsAt0_C (c : Dev nD) (t : Fin cfg0.N) (h0 : ¬t.val % 4 = 0) (h1 : t.val / 4 = t.val % 4) :
    outsAt0 m c t.val t.isLt = out0_C_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

theorem outsAt0_D (c : Dev nD) (t : Fin cfg0.N) (h0 : ¬t.val % 4 = 0) (h1 : ¬t.val / 4 = t.val % 4) :
    outsAt0 m c t.val t.isLt = out0_D_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

/-! ## The pipeline's proof data -/

/-- The proof data on core `c`: the arrays as the region finds them; after the body at point `t` each input's buffer
    at its block and the output's at `outsAt0`; the two windows on the cast matrix hold one half of it each, the
    other inputs all of theirs; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outsAt0 m c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outsAt0 m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Where the accumulator is not reset the output's buffer holds what the body left at the point before: the point is
    not the first, and the buffer was not written back between. -/
theorem before0_4_carry (c : Dev nD) (t : Fin cfg0.N) (h0 : ¬t.val % 4 = 0) (d) :
    (dats m 0 c).before 4 t d = outsAt0 m c (t.val - 1) (Nat.lt_of_le_of_lt (Nat.sub_le _ _) t.isLt) := by
  have hN : t.val < 16 := lt_of_lt_of_eq t.isLt (show cfg0.N = 16 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h0 : t.val % 4 = 0
  · by_cases h1 : t.val / 4 = t.val % 4
    · rw [outsAt0_A m c t h0 h1]
      unfold out0_A_4
      iintro ⟨HΦ, Ho, ⟨%d0, H0⟩, ⟨%d1, H1⟩, ⟨%d2, H2⟩, ⟨%d3, H3⟩, ⟨%d4, H4⟩⟩
      iapply ((kernelRun0_A c (grid0.coords t) _ _ _ _ _ _ _ _ _ _ ((hcond0_0 t).mpr h0) ((hcond0_1 t).mpr h1) (iblk m c 0 t) (iblk m c 1 t) (iblk m c 2 t) (iblk m c 3 t)).2 Set.univ _)
      isplitl [H0]; · iexact H0
      isplitl [H1]; · iexact H1
      isplitl [H2]; · iexact H2
      isplitl [H3]; · iexact H3
      isplitl [H4]; · iexists _; iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _)
    · rw [outsAt0_B m c t h0 h1]
      unfold out0_B_4
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ ((hcond0_0 t).mpr h0) (fun h => h1 ((hcond0_1 t).mp h)) (iblk m c 0 t) (iblk m c 1 t) (iblk m c 2 t) (iblk m c 3 t)).2 Set.univ _)
      isplitl [H0]; · iexact H0
      isplitl [H1]; · iexact H1
      isplitl [H2]; · iexact H2
      isplitl [H3]; · iexact H3
      isplitl [H4]; · iexists _; iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _)
  · simp only [before0_4_carry m c t h0]
    by_cases h1 : t.val / 4 = t.val % 4
    · rw [outsAt0_C m c t h0 h1]
      unfold out0_C_4
      iintro ⟨HΦ, Ho, ⟨%d0, H0⟩, ⟨%d1, H1⟩, ⟨%d2, H2⟩, ⟨%d3, H3⟩, ⟨%d4, H4⟩⟩
      iapply ((kernelRun0_C c (grid0.coords t) _ _ _ _ _ _ _ _ _ _ (fun h => h0 ((hcond0_0 t).mp h)) ((hcond0_1 t).mpr h1) (iblk m c 0 t) (iblk m c 1 t) (iblk m c 2 t) (iblk m c 3 t) _).2 Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; rfl
    · rw [outsAt0_D m c t h0 h1]
      unfold out0_D_4
      iintro ⟨HΦ, Ho, ⟨%d0, H0⟩, ⟨%d1, H1⟩, ⟨%d2, H2⟩, ⟨%d3, H3⟩, ⟨%d4, H4⟩⟩
      iapply ((kernelRun0_D c (grid0.coords t) _ _ _ _ _ _ _ _ _ _ (fun h => h0 ((hcond0_0 t).mp h)) (fun h => h1 ((hcond0_1 t).mp h)) (iblk m c 0 t) (iblk m c 1 t) (iblk m c 2 t) (iblk m c 3 t) _).2 Set.univ _)
      isplitl [H0]; · iexact H0
      isplitl [H1]; · iexact H1
      isplitl [H2]; · iexact H2
      isplitl [H3]; · iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; rfl

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Spec.lean ====
/-
  The quantity both programs compute, on the extended reals, in the two arrangements they use.

  `A` is a 4096 × 512 matrix. With `sq k` the squared length of row `k` and `gram k l` the inner product of
  rows `k` and `l`, the squared distance of rows `k` and `l` is `sq k + sq l - 2 · gram k l`.

  * `refSum`: the sum over ALL ordered pairs `(k, l)` of that distance divided by 512, each pair weighted
    by `1 - [k = l]` (the diagonal struck out).
  * `kerSum`: the rows cut into 4 blocks of 1024 (`row i r` is row `r` of block `i`); for a pair of blocks `(i, j)`
    the sum of the distances over the whole 1024 × 1024 tile is, by distributing the sums,
    `1024 · rowSum i + 1024 · rowSum j - 2 · gramSum i j` (`tile`); a diagonal tile `(i, i)` also holds the 1024 pairs
    `(k, k)`, whose distances `2 · sq k - 2 · gram k k` sum to `2 · rowSum i - 2 · traceSum i` (`diag`); block `i`
    accumulates its four tiles in order, the diagonal one with its correction taken off (`acc`), and the four
    accumulators are added.

  `kerSum_eq_refSum` (in the algebra module) says the two agree when every entry of `A` is a real number.
-/
import Mathlib.Data.EReal.Basic
import Mathlib.Data.EReal.Operations
import Mathlib.Algebra.BigOperators.Fin

noncomputable section

namespace Cert.Pairwise

open scoped BigOperators

/-- Row `r` of row block `i`: the blocks are runs of 1024 consecutive rows. -/
def row (i : Fin 4) (r : Fin 1024) : Fin 4096 := ⟨i.val * 1024 + r.val, by omega⟩

section
variable (A : Fin 4096 → Fin 512 → EReal)

/-- The squared length of row `k` (a sum started from zero). -/
def sq (k : Fin 4096) : EReal := 0 + ∑ c : Fin 512, A k c * A k c

/-- The inner product of rows `k` and `l`. -/
def gram (k l : Fin 4096) : EReal := ∑ c : Fin 512, A k c * A l c

/-- All ordered pairs, the diagonal struck out by the weight `1 - [k = l]`. -/
def refSum : EReal :=
  0 + ∑ k : Fin 4096, ∑ l : Fin 4096,
    ((sq A k + sq A l - ((2 : ℝ) : EReal) * gram A k l) * ((1 / 512 : ℝ) : EReal)) * (1 - if k = l then (1 : EReal) else 0)

/-- The squared lengths of block `i`'s rows, summed. -/
def rowSum (i : Fin 4) : EReal := ∑ r : Fin 1024, sq A (row i r)

/-- The inner products of every row of block `i` with every row of block `j`, summed rows first. -/
def gramSum (i j : Fin 4) : EReal := ∑ r : Fin 1024, ∑ s : Fin 1024, gram A (row i r) (row j s)

/-- The distances of a whole tile `(i, j)`, divided by 512, in closed form. -/
def tile (i j : Fin 4) : EReal :=
  (((1024 : ℝ) : EReal) * rowSum A i + ((1024 : ℝ) : EReal) * rowSum A j - ((2 : ℝ) : EReal) * gramSum A i j) * ((1 / 512 : ℝ) : EReal)

/-- The inner products of block `i`'s rows with themselves (the tile `(i, i)` masked to its diagonal), summed. -/
def traceSum (i : Fin 4) : EReal := ∑ r : Fin 1024, ∑ s : Fin 1024, if r = s then gram A (row i r) (row i s) else 0

/-- What the diagonal pairs of tile `(i, i)` contribute to `tile i i`. -/
def diag (i : Fin 4) : EReal :=
  (((2 : ℝ) : EReal) * rowSum A i - ((2 : ℝ) : EReal) * traceSum A i) * ((1 / 512 : ℝ) : EReal)

/-- One tile added to block `i`'s accumulator; the diagonal tile with its correction taken off afterwards. -/
def step (i j : Fin 4) (o : EReal) : EReal := if i = j then o + tile A i j - diag A i else o + tile A i j

/-- Block `i`'s accumulator after its four tiles, from zero. -/
def acc (i : Fin 4) : EReal := step A i 3 (step A i 2 (step A i 1 (step A i 0 0)))

/-- The four accumulators added (a sum started from zero). -/
def kerSum : EReal := 0 + ∑ i : Fin 4, acc A i

end

end Cert.Pairwise

end
-- ==== Proof.RefValue.lean ====
/-
  The reference program's value on the extended reals.

  The program squares and sums each row of its 4096 × 512 argument (`sq`), multiplies the argument by its own
  transpose (`gram`), forms for every ordered pair of rows `(k, l)` the squared distance
  `sq k + sq l - 2 · gram k l` divided by 512, multiplies it by `1 - [k = l]` (the indicator built by comparing the
  row number with the column number), sums the 4096 × 4096 terms from zero and divides by its last constant.

  Read one stage at a time at an index, the result is `refSum` of the argument's matrix over that constant
  (`ref_value`). The per-element facts: `sq_read` (a row's sum of squares), `gram_read` (a pair's inner product),
  `eye_read` (the diagonal's indicator: two row numbers below 4096 are equal exactly when their 32-bit words are),
  `pair_read` (one pair's term), and the three float constants `2`, `512`, `1` as the reals they denote.
-/
import proofs.«133118_j73297911873997_2_alg».proof.Proof.Spec
import proofs.«133118_j73297911873997_2_alg».proof.Proof.Gen.ReferenceIdeal.Read
import Idealize.ShloMosaic.Lib.ValueIdx
import Idealize.ShloMosaic.PureOps.Ideal.Laws

noncomputable section

namespace Cert.Pairwise

open Cert.ReferenceIdeal Cert.ReferenceIdeal.Gen Cert.ReferenceIdeal.Read Idealize.ShloMosaic Idealize.ShloMosaic.ValueIdx
open scoped BigOperators

/-- The matrix of an argument array: entry (k, c). -/
def mat (x : (⟨2, ![4096, 512]⟩ : Shape).Idx → EReal) : Fin 4096 → Fin 512 → EReal := fun k c => x (ix2 k c)

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `512.0` denotes the real `512`. -/
theorem ofBits_512 : Ideal.ofBits .f32 0x44000000#32 = ((512 : ℝ) : EReal) := by
  simp [Ideal.ofBits, Ideal.ieee, -EReal.coe_mul]; norm_num

/-- The pattern of `1.0` denotes `1`. -/
theorem ofBits_one : Ideal.ofBits .f32 0x3F800000#32 = 1 := by
  simp [Ideal.ofBits, Ideal.ieee, -EReal.coe_mul]; norm_num

/-- A row number below 4096 is recovered from its 32-bit word: distinct rows have distinct words. -/
theorem ofNat32_inj (k l : Fin 4096) : BitVec.ofNat 32 k.val = BitVec.ofNat 32 l.val ↔ k = l := by
  constructor
  · intro h
    have h' := congrArg BitVec.toNat h
    simp only [BitVec.toNat_ofNat] at h'
    have hk := k.isLt
    have hl := l.isLt
    exact Fin.ext (by omega)
  · rintro rfl; rfl

variable (x0 : (⟨Cert.ReferenceIdeal.S4096x512, .f32⟩ : BufTy).Contents (Elt Ideal))

/-- The row-sum stage at row `k` is the squared length of row `k`. -/
theorem sq_read (k : Fin 4096) : val_main_v1 (F := Ideal) x0 (ix1 k) = sq (mat x0) k := by
  rw [val_main_v1_apply, val_main_cst_apply, Ideal.ofBits_def, Ideal.ofBits_zero_f32]
  unfold sq
  refine congrArg (0 + ·) (Finset.sum_congr rfl fun c _ => ?_)
  have e : idx_main_v1 (ix1 k) c = ix2 k c :=
    funext fun a => Fin.ext (by match a with | ⟨0, _⟩ => rfl | ⟨1, _⟩ => rfl)
  rw [val_main_v0_apply, Ideal.mulf_def, e]
  rfl

/-- The product stage at `(k, l)` is the inner product of rows `k` and `l`. -/
theorem gram_read (k l : Fin 4096) : val_main_v3 (F := Ideal) x0 (ix2 k l) = gram (mat x0) k l := by
  rw [val_main_v3_apply]
  unfold gram
  refine Finset.sum_congr rfl fun c _ => ?_
  have e1 : lidx_main_v3 (ix2 k l) c = ix2 k c :=
    funext fun a => Fin.ext (by match a with | ⟨0, _⟩ => rfl | ⟨1, _⟩ => rfl)
  have e2 : idx_main_v2 (ridx_main_v3 (ix2 k l) c) = ix2 l c :=
    funext fun a => Fin.ext (by match a with | ⟨0, _⟩ => rfl | ⟨1, _⟩ => rfl)
  rw [val_main_v2_apply, e1, e2]
  rfl

/-- The comparison of the row number with the column number, converted to a float, is the indicator of the diagonal. -/
theorem eye_read (k l : Fin 4096) :
    val_main_v19 (F := Ideal) (ix2 k l) = if k = l then (1 : EReal) else 0 := by
  rw [val_main_v19_apply, val_main_v18_apply, val_main_v17_apply, val_main_v14_apply, val_main_v15_apply,
    val_main_v16_apply, val_main_c_apply]
  show (((IntOp.cmpi .eq (IntOp.addi (BitVec.ofNat 32 k.val) 0#32) (BitVec.ofNat 32 l.val)).toNat : ℝ) : EReal) = _
  unfold IntOp.cmpi IntOp.addi
  rw [BitVec.add_zero]
  by_cases h : k = l
  · subst h
    simp
  · have hne : ¬ BitVec.ofNat 32 k.val = BitVec.ofNat 32 l.val := fun hh => h ((ofNat32_inj k l).mp hh)
    simp [h, hne]

/-- One ordered pair's term: the squared distance of rows `k` and `l` over 512, struck out on the diagonal. -/
theorem pair_read (k l : Fin 4096) :
    val_main_v22 (F := Ideal) x0 (ix2 k l)
      = ((sq (mat x0) k + sq (mat x0) l - ((2 : ℝ) : EReal) * gram (mat x0) k l) * ((1 / 512 : ℝ) : EReal))
          * (1 - if k = l then (1 : EReal) else 0) := by
  have e6 : idx_main_v4 (idx_main_v6 (ix2 k l)) = ix1 k :=
    funext fun a => Fin.ext (by match a with | ⟨0, _⟩ => rfl)
  have e7 : idx_main_v5 (idx_main_v7 (ix2 k l)) = ix1 l :=
    funext fun a => Fin.ext (by match a with | ⟨0, _⟩ => rfl)
  rw [val_main_v22_apply, val_main_v13_apply, val_main_v21_apply, val_main_v11_apply, val_main_v8_apply,
    val_main_v6_apply, val_main_v7_apply, val_main_v4_apply, val_main_v5_apply, e6, e7, sq_read, sq_read,
    val_main_v10_apply, val_main_v9_apply, val_main_cst_0_apply, gram_read, val_main_v12_apply,
    val_main_cst_1_apply, val_main_v20_apply, val_main_cst_2_apply, eye_read]
  simp only [Ideal.mulf_def, Ideal.subf_def, Ideal.addf_def, Ideal.hostDivf_def, Ideal.ofBits_def, ofBits_two,
    ofBits_512, ofBits_one]
  rw [Ideal.div_coe (by norm_num)]

/-- The reference program's result: the sum over all ordered pairs, divided by the program's last constant. -/
theorem ref_value (i : Cert.ReferenceIdeal.S_.Idx) :
    Cert.ReferenceIdeal.Read.val_main_v24 (F := Ideal) x0 i
      = Ideal.div (refSum (mat x0)) (Ideal.ofBits .f32 0x4B7FF000#32) := by
  rw [val_main_v24_apply, val_main_v23_apply, val_main_cst_3_apply, val_main_cst_4_apply, Ideal.hostDivf_def,
    Ideal.ofBits_def, Ideal.ofBits_def, Ideal.ofBits_zero_f32, sum_idx2]
  unfold refSum
  refine congrArg (fun s => Ideal.div (0 + s) _) ?_
  exact Finset.sum_congr rfl fun k _ => Finset.sum_congr rfl fun l _ => pair_read x0 k l

end Cert.Pairwise

end
-- ==== Proof.KI.Payloads.lean ====
/-
  The kernel body's arithmetic on the extended reals, read at an index.

  One tile `(i, j)` of the 4096 × 4096 array of squared distances is never formed: with `X` and `Y` the two
  1024 × 512 row blocks, `p` the column of the first block's squared lengths and `q` the row of the second's, the body
  adds to one cell `(1024 · Σ p + 1024 · Σ q - 2 · Σ_r Σ_s ⟨X_r, Y_s⟩) / 512` (`pay5_read`), the products
  `⟨X_r, Y_s⟩ = Σ_c X_rc · Y_sc` being the matrix product of `X` with the transpose of `Y` (`pay3_read`) and `Σ p` a sum
  along the rows of a column (`pay4_read`); the cell starts from zero (`pay2_read`); on a diagonal tile the pairs
  `(r, r)` are taken off again, `(2 · Σ p - 2 · Σ_r ⟨X_r, Y_r⟩) / 512`, the diagonal picked out by comparing the row
  number with the column number (`mask_read`, `pay1_read`).

  Each non-pointwise operation is read at an index by a lemma of its own: a sum along one axis (`rowSum_read`,
  `colSum_read`, `laneSum_read`), a vector recast as a column or a cell (`shapeCast_col_read`, `shapeCast_cell_read`),
  the product's operand indices (`lhs_row` … `rhs_col`), and the float constants `1024` and `1 / 512`.
-/
import proofs.«133118_j73297911873997_2_alg».proof.Proof.Gen.KernelIdeal.Skeleton
import proofs.«133118_j73297911873997_2_alg».proof.Proof.RefValue
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ## The float constants -/

/-- The pattern of `1024.0` denotes the real `1024`. -/
theorem ofBits_1024 : Ideal.ofBits .f32 0x44800000#32 = ((1024 : ℝ) : EReal) := by
  simp [Ideal.ofBits, Ideal.ieee, -EReal.coe_mul]; norm_num

/-- The pattern of `0.001953125` denotes the real `1 / 512`. -/
theorem ofBits_inv512 : Ideal.ofBits .f32 0x3B000000#32 = ((1 / 512 : ℝ) : EReal) := by
  simp [Ideal.ofBits, Ideal.ieee, -EReal.coe_mul]; norm_num

/-! ## Sums along one axis, read at an index -/

/-- A sum along the columns of a 1024 × 1024 array, at row `r`: the sum of that row. -/
theorem rowSum_read (src : FVec Ideal S1024x1024 .f32) (h : S1024x1024.Reduces [1] S1024) (hφ : FKind.Formats .f32)
    (hacc : (0x00000000#32 : BitVec 32) = FKind.add.neutral .f32 hφ) (r : Fin 1024) :
    multiReduction .add [1] S1024 src 0x00000000#32 h hφ hacc (ix1 r) = ∑ s : Fin 1024, src (ix2 r s) := by
  refine (Ideal.multiReduction_add_single src _ h hφ hacc (ix1 r)).trans ?_
  refine Finset.sum_congr rfl fun s _ => congrArg src ?_
  funext a
  refine Fin.ext ?_
  match a with
  | ⟨0, _⟩ => rfl
  | ⟨1, _⟩ => rfl

/-- A sum along the rows of a 1024 × 1 column: the sum of its entries. -/
theorem colSum_read (src : FVec Ideal S1024x1 .f32) (h : S1024x1.Reduces [0] S1) (hφ : FKind.Formats .f32)
    (hacc : (0x00000000#32 : BitVec 32) = FKind.add.neutral .f32 hφ) :
    multiReduction .add [0] S1 src 0x00000000#32 h hφ hacc (ix1 0) = ∑ r : Fin 1024, src (ix2 r 0) := by
  refine (Ideal.multiReduction_add_single src _ h hφ hacc (ix1 0)).trans ?_
  refine Finset.sum_congr rfl fun r _ => congrArg src ?_
  funext a
  refine Fin.ext ?_
  match a with
  | ⟨0, _⟩ => rfl
  | ⟨1, _⟩ => rfl

/-- A sum along the columns of a 1 × 1024 row: the sum of its entries. -/
theorem laneSum_read (src : FVec Ideal S1x1024 .f32) (h : S1x1024.Reduces [1] S1) (hφ : FKind.Formats .f32)
    (hacc : (0x00000000#32 : BitVec 32) = FKind.add.neutral .f32 hφ) :
    multiReduction .add [1] S1 src 0x00000000#32 h hφ hacc (ix1 0) = ∑ s : Fin 1024, src (ix2 0 s) := by
  refine (Ideal.multiReduction_add_single src _ h hφ hacc (ix1 0)).trans ?_
  refine Finset.sum_congr rfl fun s _ => congrArg src ?_
  funext a
  refine Fin.ext ?_
  match a with
  | ⟨0, _⟩ => rfl
  | ⟨1, _⟩ => rfl

/-- A length-1024 vector recast as a 1024 × 1 column reads, at `(r, 0)`, the vector at `r`. -/
theorem shapeCast_col_read {α : Type} (x : S1024.Idx → α) (h : S1024.ShapeCasts S1024x1) (r : Fin 1024) :
    shapeCast S1024x1 x h (ix2 r 0) = x (ix1 r) :=
  shapeCast_apply x h _ _ (by
    rw [Shape.rowMajor_val_two, Shape.rowMajor_val_one]
    show r.val = r.val * 1 + 0
    omega)

/-- A one-element vector recast as a 1 × 1 array reads its element. -/
theorem shapeCast_cell_read {α : Type} (x : S1.Idx → α) (h : S1.ShapeCasts S1x1) :
    shapeCast S1x1 x h (ix2 0 0) = x (ix1 0) :=
  shapeCast_a_1a_apply x h 0 0

variable (x3 x5 : Vec Ideal S1024x512 .bf16) (x9 : Vec Ideal S1024x1 .f32) (x13 : Vec Ideal S1x1024 .f32)
  (x31 : Vec Ideal S1x1 .f32) (v8 : FVec Ideal S1024x1024 .f32) (v12 : FVec Ideal S1x1 .f32) (x54 : Vec Ideal S1x1 .f32)

/-- The accumulator's first value is zero everywhere. -/
theorem pay2_read (j : S8x128.Idx) : k0_pay2 (F := Ideal) j = 0 := by
  show Ideal.ofBits .f32 0x00000000#32 = 0
  exact Ideal.ofBits_zero_f32

/-- The sum of a column block of squared lengths. -/
theorem pay4_read : k0_pay4 (F := Ideal) x9 (ix2 0 0) = ∑ r : Fin 1024, x9 (ix2 r 0) := by
  unfold k0_pay4
  refine (shapeCast_cell_read _ _).trans ?_
  refine (colSum_read _ _ _ _).trans ?_
  refine Finset.sum_congr rfl fun r _ => ?_
  exact congrFun (shapeCast_self x9 _) (ix2 r 0)

/-! ## The matrix product -/

/-- The product's dimension numbers: rows of the left operand against columns of the right, one contracted axis. -/
abbrev DD : DotDims S1024x512 S512x1024 S1024x1024 := dot_S1024x512_S512x1024_S1024x1024_1_0_0_1_n_n

theorem lhs_row (i : S1024x1024.Idx) (q : DD.contr.Idx) : (DD.lhsIdx i q 0).val = (i 0).val := by
  unfold DotDims.lhsIdx
  rw [dif_neg (show ¬(0 : Fin S1024x512.rank) ∈ DD.lhsBatch by decide),
    dif_pos (show (0 : Fin S1024x512.rank) ∈ DD.lhsNonContracting by decide)]
  rfl
theorem lhs_contr (i : S1024x1024.Idx) (q : DD.contr.Idx) : (DD.lhsIdx i q 1).val = (q ⟨0, by decide⟩).val :=
  DD.lhsIdx_val_of_single rfl i q
theorem rhs_contr (i : S1024x1024.Idx) (q : DD.contr.Idx) : (DD.rhsIdx i q 0).val = (q ⟨0, by decide⟩).val :=
  DD.rhsIdx_val_of_single rfl i q
theorem rhs_col (i : S1024x1024.Idx) (q : DD.contr.Idx) : (DD.rhsIdx i q 1).val = (i 1).val := by
  unfold DotDims.rhsIdx
  rw [dif_neg (show ¬(1 : Fin S512x1024.rank) ∈ DD.rhsBatch by decide),
    dif_pos (show (1 : Fin S512x1024.rank) ∈ DD.rhsNonContracting by decide)]
  rfl

/-- The product of a row block with the transpose of another, at `(r, s)`: the inner product of row `r` of the first
    with row `s` of the second. -/
theorem pay3_read (r s : Fin 1024) :
    k0_pay3 (F := Ideal) x3 x5 (ix2 r s) = ∑ c : Fin 512, x3 (ix2 r c) * x5 (ix2 s c) := by
  unfold k0_pay3
  refine (Ideal.matmul_constant_zero_apply DD none _ _ (ix2 r s)).trans ?_
  refine (Equiv.sum_comp (contrEquiv1 DD 512 rfl rfl).symm _).symm.trans ?_
  refine Finset.sum_congr rfl fun c _ => ?_
  have hc := contrEquiv1_symm_val DD 512 rfl rfl c
  have el : DD.lhsIdx (ix2 r s) ((contrEquiv1 DD 512 rfl rfl).symm c) = ix2 r c := funext fun a => Fin.ext (by
    match a with
    | ⟨0, _⟩ => exact lhs_row _ _
    | ⟨1, _⟩ => exact (lhs_contr _ _).trans hc)
  have er : DD.rhsIdx (ix2 r s) ((contrEquiv1 DD 512 rfl rfl).symm c) = ix2 c s := funext fun a => Fin.ext (by
    match a with
    | ⟨0, _⟩ => exact (rhs_contr _ _).trans hc
    | ⟨1, _⟩ => exact rhs_col _ _)
  refine congrArg₂ (· * ·) ?_ ?_
  · exact (congrArg _ el).trans (congrFun (shapeCast_self x3 _) _)
  · exact (congrArg _ er).trans ((transpose_ix2_apply _ _ c s).trans (congrFun (shapeCast_self x5 _) _))

/-! ## The block accumulator's step -/

/-- One tile's contribution added to the accumulator's cell: `1024` times the column block's sum plus `1024` times the
    row block's sum, less twice the sum of all the tile's inner products, the whole over 512. -/
theorem pay5_read :
    k0_pay5 (F := Ideal) x3 x5 x9 x13 x31 (ix2 0 0)
      = x31 (ix2 0 0) + ((((1024 : ℝ) : EReal) * ∑ r : Fin 1024, x9 (ix2 r 0)) + ((1024 : ℝ) : EReal) * (∑ s : Fin 1024, x13 (ix2 0 s))
          - ((2 : ℝ) : EReal) * ∑ r : Fin 1024, ∑ s : Fin 1024, ∑ c : Fin 512, x3 (ix2 r c) * x5 (ix2 s c))
            * ((1 / 512 : ℝ) : EReal) := by
  unfold k0_pay5
  refine congrArg₂ (· + ·) (congrFun (shapeCast_self x31 _) _) ?_
  refine congrArg₂ (· * ·) ?_ ofBits_inv512
  refine congrArg₂ (· - ·) (congrArg₂ (· + ·) (congrArg₂ (· * ·) ofBits_1024 (pay4_read x9))
    (congrArg₂ (· * ·) ofBits_1024 ?_)) (congrArg₂ (· * ·) Cert.Pairwise.ofBits_two ?_)
  · refine (shapeCast_cell_read _ _).trans ((laneSum_read _ _ _ _).trans ?_)
    exact Finset.sum_congr rfl fun s _ => congrFun (shapeCast_self x13 _) _
  · refine (shapeCast_cell_read _ _).trans ((colSum_read _ _ _ _).trans ?_)
    refine Finset.sum_congr rfl fun r _ => ?_
    refine (shapeCast_col_read _ _ r).trans ((rowSum_read _ _ _ _ r).trans ?_)
    exact Finset.sum_congr rfl fun s _ => pay3_read x3 x5 r s

/-! ## The diagonal tile's correction -/

/-- The row number compared with the column number selects the diagonal: the entry on it, zero off it. -/
theorem mask_read (h0 : S1024x1024.Iotas .tc 32 [0]) (h1 : S1024x1024.Iotas .tc 32 [1]) (z : Ideal .f32) (r s : Fin 1024) :
    select (cmpi .eq (iota .tc S1024x1024 32 [0] h0) (iota .tc S1024x1024 32 [1] h1)) v8 (broadcast S1024x1024 z) (ix2 r s)
      = if r = s then v8 (ix2 r s) else z := by
  show Scalar.select (IntOp.cmpi .eq (BitVec.ofNat 32 (0 * 1024 + r.val)) (BitVec.ofNat 32 (0 * 1024 + s.val))) (v8 (ix2 r s)) z = _
  unfold Scalar.select IntOp.cmpi
  simp only [Nat.zero_mul, Nat.zero_add]
  by_cases h : r = s
  · subst h
    simp
  · have hne : ¬ BitVec.ofNat 32 r.val = BitVec.ofNat 32 s.val := by
      intro hh
      have h' := congrArg BitVec.toNat hh
      simp only [BitVec.toNat_ofNat] at h'
      have hr := r.isLt
      have hs := s.isLt
      exact h (Fin.ext (by omega))
    have hb : (BitVec.ofNat 32 r.val == BitVec.ofNat 32 s.val) = false := beq_eq_false_iff_ne.mpr hne
    rw [hb, if_neg h, if_neg (by decide)]

/-- The diagonal pairs' contribution taken off the accumulator's cell: twice the block's sum of squared lengths less
    twice the sum of the tile's diagonal, the whole over 512. -/
theorem pay1_read :
    k0_pay1 (F := Ideal) v8 v12 x54 (ix2 0 0)
      = x54 (ix2 0 0) - (((2 : ℝ) : EReal) * v12 (ix2 0 0)
          - ((2 : ℝ) : EReal) * ∑ r : Fin 1024, ∑ s : Fin 1024, if r = s then v8 (ix2 r s) else 0) * ((1 / 512 : ℝ) : EReal) := by
  unfold k0_pay1
  refine congrArg₂ (· - ·) (congrFun (shapeCast_self x54 _) _) ?_
  refine congrArg₂ (· * ·) ?_ ofBits_inv512
  refine congrArg₂ (· - ·) (congrArg₂ (· * ·) Cert.Pairwise.ofBits_two rfl) (congrArg₂ (· * ·) Cert.Pairwise.ofBits_two ?_)
  refine (shapeCast_cell_read _ _).trans ((colSum_read _ _ _ _).trans ?_)
  refine Finset.sum_congr rfl fun r _ => ?_
  refine (shapeCast_col_read _ _ r).trans ((rowSum_read _ _ _ _ r).trans ?_)
  refine Finset.sum_congr rfl fun s _ => ?_
  refine (mask_read v8 _ _ _ r s).trans ?_
  exact congrArg (fun z => if r = s then v8 (ix2 r s) else z) Ideal.ofBits_zero_f32

end Cert.KernelIdeal.Hand

end
-- ==== Proof.KI.TileVal.lean ====
/-
  The two quantities the kernel body forms from the blocks it loads, on the extended reals: the closed-form sum of
  a tile's squared distances divided by 512, and what the pairs on the tile's diagonal contribute to it.
-/
import proofs.«133118_j73297911873997_2_alg».proof.Proof.KI.Payloads

noncomputable section

namespace Cert.KernelIdeal.Hand

open Cert.KernelIdeal Cert.KernelIdeal.Gen Idealize.ShloMosaic Idealize.ShloMosaic.ValueIdx
open scoped BigOperators

variable (x0 x1 : Vec Ideal S1024x512 .bf16) (x2 : Vec Ideal S1024x1 .f32) (x3 : Vec Ideal S1x1024 .f32)

/-- The closed-form sum of a tile's distances, divided by 512, from the two row blocks and their squared lengths. -/
def tileVal : EReal :=
  ((((1024 : ℝ) : EReal) * ∑ r : Fin 1024, x2 (ix2 r 0)) + ((1024 : ℝ) : EReal) * (∑ s : Fin 1024, x3 (ix2 0 s))
      - ((2 : ℝ) : EReal) * ∑ r : Fin 1024, ∑ s : Fin 1024, ∑ c : Fin 512, x0 (ix2 r c) * x1 (ix2 s c)) * ((1 / 512 : ℝ) : EReal)

/-- What the pairs on the tile's diagonal contribute to it. -/
def diagVal : EReal :=
  (((2 : ℝ) : EReal) * (∑ r : Fin 1024, x2 (ix2 r 0))
      - ((2 : ℝ) : EReal) * ∑ r : Fin 1024, ∑ s : Fin 1024, if r = s then (∑ c : Fin 512, x0 (ix2 r c) * x1 (ix2 s c)) else 0) * ((1 / 512 : ℝ) : EReal)

end Cert.KernelIdeal.Hand

end
-- ==== Proof.LibAccCell.lean ====
/-
  A rank-2 buffer written by stores through unit-stride boxes, newest first, read at an index: a store through the
  one-cell box at the origin is read at the origin as its payload's one entry and is skipped at every other index; a
  store through the whole buffer is read everywhere as its payload; and a whole buffer's contents with nothing written
  over them read as they are. Together they read off an accumulator kept in the first cell of a block that is
  otherwise zero.
-/
import Idealize.ShloMosaic.Lib.WritesUnit
import Idealize.ShloMosaic.Lib.ValueIdx
import Idealize.ShloMosaic.Lib.Pipeline.Frame

noncomputable section

namespace Cert.Lib.AccCell

open Idealize.ShloMosaic Idealize.ShloMosaic.ValueIdx

variable {sig : RefSig} {κ : Kind} {sp : Space} {e : EltTy} {Val : EltTy → Type} {a b : Nat}

/-- The newest store is through the one-cell box at the origin: the origin reads its payload's entry. -/
theorem read_cell_origin (v : View sig κ sp (⟨2, ![a, b]⟩ : Shape) e) (f : v.ty.Contents Val) {off size : Fin 2 → ℕ}
    (inb : ∀ d, off d + size d ≤ (⟨2, ![a, b]⟩ : Shape).size d) (hoff : off = ![0, 0])
    (w : (Rect.unit (s := (⟨2, ![a, b]⟩ : Shape)) off size inb).shape.Idx → Val e) (L : List (View.Piece Val (⟨2, ![a, b]⟩ : Shape) e))
    (y : (⟨2, ![a, b]⟩ : Shape).Idx) (x : (Rect.unit (s := (⟨2, ![a, b]⟩ : Shape)) off size inb).shape.Idx)
    (h0 : (y 0).val = (x 0).val) (h1 : (y 1).val = (x 1).val) :
    v.read Val (v.writes Val f ((⟨Rect.unit off size inb, w⟩ : View.Piece Val (⟨2, ![a, b]⟩ : Shape) e) :: L)) y = w x :=
  View.read_writes_cons_unit_of_mem v f inb w L y x hoff (Fin.forall_fin_two.mpr
    ⟨by rw [h0]; exact (Nat.zero_add _).symm, by rw [h1]; exact (Nat.zero_add _).symm⟩)

/-- The newest store is through the one-cell box at the origin: an index with a nonzero coordinate skips it. -/
theorem read_cell_skip (v : View sig κ sp (⟨2, ![a, b]⟩ : Shape) e) (f : v.ty.Contents Val) {off size : Fin 2 → ℕ}
    (inb : ∀ d, off d + size d ≤ (⟨2, ![a, b]⟩ : Shape).size d) (hoff : off = ![0, 0]) (hsize : size = ![1, 1])
    (w : (Rect.unit (s := (⟨2, ![a, b]⟩ : Shape)) off size inb).shape.Idx → Val e) (L : List (View.Piece Val (⟨2, ![a, b]⟩ : Shape) e))
    (y : (⟨2, ![a, b]⟩ : Shape).Idx) (hy : (y 0).val ≠ 0 ∨ (y 1).val ≠ 0) :
    v.read Val (v.writes Val f ((⟨Rect.unit off size inb, w⟩ : View.Piece Val (⟨2, ![a, b]⟩ : Shape) e) :: L)) y
      = v.read Val (v.writes Val f L) y := by
  subst hsize
  rcases hy with h | h
  · exact View.read_writes_cons_unit_of_not_mem v f inb w L y hoff (0 : Fin 2) (Or.inr (by
      show 0 + 1 ≤ (y 0).val; omega))
  · exact View.read_writes_cons_unit_of_not_mem v f inb w L y hoff (1 : Fin 2) (Or.inr (by
      show 0 + 1 ≤ (y 1).val; omega))

end Cert.Lib.AccCell

end
-- ==== Proof.KI.Cells.lean ====
/-
  What each case of the kernel body leaves in the accumulator block, read at an index on the extended reals: the
  first cell holds the running value (reset to zero or carried over), plus the tile's closed-form sum, less the
  diagonal's correction on a diagonal tile; every other cell holds zero after a reset and is left alone otherwise.
-/
import proofs.«133118_j73297911873997_2_alg».proof.Proof.KI.Body
import proofs.«133118_j73297911873997_2_alg».proof.Proof.KI.TileVal
import proofs.«133118_j73297911873997_2_alg».proof.Proof.LibAccCell

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.Lib.AccCell
open scoped BigOperators

theorem hz : (![0, 0] : Fin 2 → Nat) = fun _ => 0 := funext fun a => by fin_cases a <;> rfl

/-- The one-cell box at the origin of the accumulator block. -/
abbrev r11 : Rect S8x128 := Rect.unit (s := S8x128) ![0, 0] S1x1.size inb_S8x128_S1x1_0_0

/-- A block's first cell, as the body loads it. -/
theorem ld_r11_origin (X : Vec Ideal S8x128 .f32) : (View.ld X r11 : Vec Ideal S1x1 .f32) (ix2 0 0) = X (ix2 0 0) := by
  show X (r11.emb (ix2 0 0)) = X (ix2 0 0)
  exact congrArg X (funext fun a => Fin.ext (by match a with | ⟨0, _⟩ => rfl | ⟨1, _⟩ => rfl))

/-- After the reset the first cell reads back the reset value's first entry. -/
theorem readCov_reset_cell (v : View sig .tc .vmem S8x128 .f32) (w : Vec Ideal S8x128 .f32) :
    (v.readCov [(⟨Rect.unit (s := S8x128) ![0, 0] S8x128.size inb_S8x128_S8x128_0_0, w⟩ : View.Piece (Elt Ideal) S8x128 .f32)] r11.toLoadRect : Vec Ideal S1x1 .f32) (ix2 0 0)
      = w (ix2 0 0) := by
  rw [View.readCov_eq_canon_ld _ _ _ (fun y => ⟨_, List.mem_singleton_self _, View.mem_set_unit_zero hz inb_S8x128_S8x128_0_0 y⟩), View.canon_unit_zero hz]
  exact ld_r11_origin w

/-! ## The first point of a row block on the diagonal (reset, tile, correction) -/

theorem outA_origin (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : cond0_0 i) (hc1 : cond0_1 i) (x0 x1 : Vec Ideal S1024x512 .bf16) (x2 : Vec Ideal S1024x1 .f32) (x3 : Vec Ideal S1x1024 .f32) :
    out0_A_4 (F := Ideal) c i arg2 harg2 arg3 harg3 arg4 harg4 arg5 harg5 arg6 harg6 hc0 hc1 x0 x1 x2 x3 (ix2 0 0) = 0 + tileVal x0 x1 x2 x3 - diagVal x0 x1 x2 := by
  unfold out0_A_4 kernelRun0_A
  dsimp only
  sl_unfold_words
  refine (read_cell_origin VO0_4 _ inb_S8x128_S1x1_0_0 rfl _ _ (ix2 0 0) (ix2 0 0) rfl rfl).trans ?_
  simp only [View.readAt_eq_ld, harg2.read_unread, harg3.read_unread, harg4.read_unread, harg5.read_unread,
    View.ld_unit_zero (S := S1024x512) hz, View.ld_unit_zero (S := S1024x1) hz, View.ld_unit_zero (S := S1x1024) hz]
  refine (pay1_read _ _ _).trans ?_
  rw [View.readCov_cons_toLoadRect]
  refine (congrArg (· - _) (pay5_read _ _ _ _ _)).trans ?_
  rw [show (arg6.view.readCov [(⟨Rect.unit (s := S8x128) ![0, 0] ![8, 128] inb_S8x128_S8x128_0_0, k0_pay2 (F := Ideal)⟩ : View.Piece (Elt Ideal) S8x128 .f32)]
        (Rect.unit (s := S8x128) ![0, 0] ![1, 1] inb_S8x128_S1x1_0_0).toLoadRect : Vec Ideal S1x1 .f32) (ix2 0 0) = k0_pay2 (F := Ideal) (ix2 0 0)
      from readCov_reset_cell arg6.view _, pay2_read, pay4_read]
  simp only [pay3_read]
  rfl

theorem outA_off (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : cond0_0 i) (hc1 : cond0_1 i) (x0 x1 : Vec Ideal S1024x512 .bf16) (x2 : Vec Ideal S1024x1 .f32) (x3 : Vec Ideal S1x1024 .f32)
    (y : S8x128.Idx) (hy : (y 0).val ≠ 0 ∨ (y 1).val ≠ 0) :
    out0_A_4 (F := Ideal) c i arg2 harg2 arg3 harg3 arg4 harg4 arg5 harg5 arg6 harg6 hc0 hc1 x0 x1 x2 x3 y = 0 := by
  unfold out0_A_4 kernelRun0_A
  dsimp only
  sl_unfold_words
  refine (read_cell_skip VO0_4 _ inb_S8x128_S1x1_0_0 rfl rfl _ _ y hy).trans ?_
  refine (read_cell_skip VO0_4 _ inb_S8x128_S1x1_0_0 rfl rfl _ _ y hy).trans ?_
  refine (read_cell_origin VO0_4 _ inb_S8x128_S8x128_0_0 rfl _ _ y y rfl rfl).trans ?_
  exact pay2_read y

/-! ## The first point of a row block off the diagonal (reset, tile) -/

theorem outB_origin (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : cond0_0 i) (hc1 : ¬cond0_1 i) (x0 x1 : Vec Ideal S1024x512 .bf16) (x2 : Vec Ideal S1024x1 .f32) (x3 : Vec Ideal S1x1024 .f32) :
    out0_B_4 (F := Ideal) c i arg2 harg2 arg3 harg3 arg4 harg4 arg5 harg5 arg6 harg6 hc0 hc1 x0 x1 x2 x3 (ix2 0 0) = 0 + tileVal x0 x1 x2 x3 := by
  unfold out0_B_4 kernelRun0_B
  dsimp only
  sl_unfold_words
  refine (read_cell_origin VO0_4 _ inb_S8x128_S1x1_0_0 rfl _ _ (ix2 0 0) (ix2 0 0) rfl rfl).trans ?_
  simp only [View.readAt_eq_ld, harg2.read_unread, harg3.read_unread, harg4.read_unread, harg5.read_unread,
    View.ld_unit_zero (S := S1024x512) hz, View.ld_unit_zero (S := S1024x1) hz, View.ld_unit_zero (S := S1x1024) hz]
  refine (pay5_read _ _ _ _ _).trans ?_
  rw [show (arg6.view.readCov [(⟨Rect.unit (s := S8x128) ![0, 0] ![8, 128] inb_S8x128_S8x128_0_0, k0_pay2 (F := Ideal)⟩ : View.Piece (Elt Ideal) S8x128 .f32)]
        (Rect.unit (s := S8x128) ![0, 0] ![1, 1] inb_S8x128_S1x1_0_0).toLoadRect : Vec Ideal S1x1 .f32) (ix2 0 0) = k0_pay2 (F := Ideal) (ix2 0 0)
      from readCov_reset_cell arg6.view _, pay2_read]
  rfl

theorem outB_off (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : cond0_0 i) (hc1 : ¬cond0_1 i) (x0 x1 : Vec Ideal S1024x512 .bf16) (x2 : Vec Ideal S1024x1 .f32) (x3 : Vec Ideal S1x1024 .f32)
    (y : S8x128.Idx) (hy : (y 0).val ≠ 0 ∨ (y 1).val ≠ 0) :
    out0_B_4 (F := Ideal) c i arg2 harg2 arg3 harg3 arg4 harg4 arg5 harg5 arg6 harg6 hc0 hc1 x0 x1 x2 x3 y = 0 := by
  unfold out0_B_4 kernelRun0_B
  dsimp only
  sl_unfold_words
  refine (read_cell_skip VO0_4 _ inb_S8x128_S1x1_0_0 rfl rfl _ _ y hy).trans ?_
  refine (read_cell_origin VO0_4 _ inb_S8x128_S8x128_0_0 rfl _ _ y y rfl rfl).trans ?_
  exact pay2_read y

/-! ## A later point on the diagonal (carried, tile, correction) -/

theorem outC_origin (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : ¬cond0_0 i) (hc1 : cond0_1 i) (x0 x1 : Vec Ideal S1024x512 .bf16) (x2 : Vec Ideal S1024x1 .f32) (x3 : Vec Ideal S1x1024 .f32)
    (xo : Vec Ideal S8x128 .f32) :
    out0_C_4 (F := Ideal) c i arg2 harg2 arg3 harg3 arg4 harg4 arg5 harg5 arg6 harg6 hc0 hc1 x0 x1 x2 x3 xo (ix2 0 0) = xo (ix2 0 0) + tileVal x0 x1 x2 x3 - diagVal x0 x1 x2 := by
  unfold out0_C_4 kernelRun0_C
  dsimp only
  sl_unfold_words
  refine (read_cell_origin arg6.view _ inb_S8x128_S1x1_0_0 rfl _ _ (ix2 0 0) (ix2 0 0) rfl rfl).trans ?_
  simp only [View.readAt_eq_ld, harg2.read_unread, harg3.read_unread, harg4.read_unread, harg5.read_unread, harg6.read_unread,
    View.ld_unit_zero (S := S1024x512) hz, View.ld_unit_zero (S := S1024x1) hz, View.ld_unit_zero (S := S1x1024) hz]
  refine (pay1_read _ _ _).trans ?_
  rw [View.readCov_cons_toLoadRect]
  refine (congrArg (· - _) (pay5_read _ _ _ _ _)).trans ?_
  rw [show (View.ld xo (Rect.unit (s := S8x128) ![0, 0] S1x1.size inb_S8x128_S1x1_0_0) : Vec Ideal S1x1 .f32) (ix2 0 0) = xo (ix2 0 0) from ld_r11_origin xo, pay4_read]
  simp only [pay3_read]
  rfl

theorem outC_off (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : ¬cond0_0 i) (hc1 : cond0_1 i) (x0 x1 : Vec Ideal S1024x512 .bf16) (x2 : Vec Ideal S1024x1 .f32) (x3 : Vec Ideal S1x1024 .f32)
    (xo : Vec Ideal S8x128 .f32) (y : S8x128.Idx) (hy : (y 0).val ≠ 0 ∨ (y 1).val ≠ 0) :
    out0_C_4 (F := Ideal) c i arg2 harg2 arg3 harg3 arg4 harg4 arg5 harg5 arg6 harg6 hc0 hc1 x0 x1 x2 x3 xo y = xo y := by
  unfold out0_C_4 kernelRun0_C
  dsimp only
  sl_unfold_words
  refine (read_cell_skip arg6.view _ inb_S8x128_S1x1_0_0 rfl rfl _ _ y hy).trans ?_
  refine (read_cell_skip arg6.view _ inb_S8x128_S1x1_0_0 rfl rfl _ _ y hy).trans ?_
  rw [View.writes_nil]
  exact congrFun (harg6.read_unread xo) y

/-! ## A later point off the diagonal (carried, tile) -/

theorem outD_origin (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : ¬cond0_0 i) (hc1 : ¬cond0_1 i) (x0 x1 : Vec Ideal S1024x512 .bf16) (x2 : Vec Ideal S1024x1 .f32) (x3 : Vec Ideal S1x1024 .f32)
    (xo : Vec Ideal S8x128 .f32) :
    out0_D_4 (F := Ideal) c i arg2 harg2 arg3 harg3 arg4 harg4 arg5 harg5 arg6 harg6 hc0 hc1 x0 x1 x2 x3 xo (ix2 0 0) = xo (ix2 0 0) + tileVal x0 x1 x2 x3 := by
  unfold out0_D_4 kernelRun0_D
  dsimp only
  sl_unfold_words
  refine (read_cell_origin arg6.view _ inb_S8x128_S1x1_0_0 rfl _ _ (ix2 0 0) (ix2 0 0) rfl rfl).trans ?_
  simp only [View.readAt_eq_ld, harg2.read_unread, harg3.read_unread, harg4.read_unread, harg5.read_unread, harg6.read_unread,
    View.ld_unit_zero (S := S1024x512) hz, View.ld_unit_zero (S := S1024x1) hz, View.ld_unit_zero (S := S1x1024) hz]
  refine (pay5_read _ _ _ _ _).trans ?_
  rw [show (View.ld xo (Rect.unit (s := S8x128) ![0, 0] S1x1.size inb_S8x128_S1x1_0_0) : Vec Ideal S1x1 .f32) (ix2 0 0) = xo (ix2 0 0) from ld_r11_origin xo]
  rfl

theorem outD_off (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S8x128 .f32) (harg6 : arg6.IsWhole) (hc0 : ¬cond0_0 i) (hc1 : ¬cond0_1 i) (x0 x1 : Vec Ideal S1024x512 .bf16) (x2 : Vec Ideal S1024x1 .f32) (x3 : Vec Ideal S1x1024 .f32)
    (xo : Vec Ideal S8x128 .f32) (y : S8x128.Idx) (hy : (y 0).val ≠ 0 ∨ (y 1).val ≠ 0) :
    out0_D_4 (F := Ideal) c i arg2 harg2 arg3 harg3 arg4 harg4 arg5 harg5 arg6 harg6 hc0 hc1 x0 x1 x2 x3 xo y = xo y := by
  unfold out0_D_4 kernelRun0_D
  dsimp only
  sl_unfold_words
  refine (read_cell_skip arg6.view _ inb_S8x128_S1x1_0_0 rfl rfl _ _ y hy).trans ?_
  rw [View.writes_nil]
  exact congrFun (harg6.read_unread xo) y

end Cert.KernelIdeal.Hand

end
-- ==== Proof.KI.EntryRead.lean ====
/-
  What the kernel's windows stage, read off the program's argument on the extended reals.

  Before the region the program squares and sums each row of its 4096 × 512 argument `a` from zero, lays the 4096 sums
  out once as a column and once as a row, and changes the argument's format. At an index: the staged matrix is `a`
  itself, a change of format being the identity on extended reals (`V_v4`); the column at `(k, 0)` and the row at
  `(0, k)` are the squared length of row `k` of `a` (`V_v2`, `V_v3`), by reading the row sum at `k` (`rowSq_read`)
  through the two changes of shape, which keep the row-major position.
-/
import proofs.«133118_j73297911873997_2_alg».proof.Proof.KI.Entry
import proofs.«133118_j73297911873997_2_alg».proof.Proof.RefValue
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ) (c : Dev nD)

/-- A row's sum of squares, started from zero, is the squared length of that row of the matrix. -/
theorem rowSq_read (a : FVec Ideal S4096x512 .f32) (h : S4096x512.ReducesTo [1] S4096) (h0 : 0 < S_.numel) (k : Fin 4096) :
    Host.reduceAdd (F := Ideal) (mulf a a) (constant (F := Ideal) S_ .f32 0x00000000#32) h h0 (ix1 k)
      = Cert.Pairwise.sq (Cert.Pairwise.mat a) k := by
  simp only [Host.reduceAdd, Ideal.hostReduceAdd_def]
  rw [Ideal.hostReduceAdd_single h (by decide)]
  unfold Cert.Pairwise.sq
  refine congrArg₂ (· + ·) Ideal.ofBits_zero_f32 (Finset.sum_congr rfl fun cc _ => ?_)
  have e : (by decide : S4096x512.Reduces [1] S4096).lift (ix1 k) cc = ix2 k cc :=
    funext fun b => Fin.ext (by match b with | ⟨0, _⟩ => rfl | ⟨1, _⟩ => rfl)
  exact congrArg (fun j => a j * a j) e

/-- The argument array, as the region finds it on core `c`. -/
abbrev argArr : FVec Ideal S4096x512 .f32 := m ((c : Thread nD τ).loc main_arg0)

/-- The matrix the kernel's two row-block windows stage is the argument itself: the change of format is the identity on
    extended reals. -/
theorem V_v4 (k : Fin 4096) (cc : Fin 512) :
    (V m c main_v4 : S4096x512.Idx → EReal) (ix2 k cc) = argArr m c (ix2 k cc) := by
  have e : (V m c main_v4 : S4096x512.Idx → EReal) = truncf .bf16 (argArr m c) bitsLt_bf16_f32 := by
    dsimp only [V, V0]
    simp only [Gen.hostOps0, List.flatten_cons, List.flatten_nil, List.append_nil]
    after_results
  rw [e]
  rfl

/-- The column of squared lengths the kernel's third window stages. -/
theorem V_v2 (k : Fin 4096) :
    (V m c main_v2 : S4096x1.Idx → EReal) (ix2 k 0) = Cert.Pairwise.sq (Cert.Pairwise.mat (argArr m c)) k := by
  have e : (V m c main_v2 : S4096x1.Idx → EReal)
      = shapeCast S4096x1 (Host.reduceAdd (F := Ideal) (mulf (argArr m c) (argArr m c)) (constant (F := Ideal) S_ .f32 0x00000000#32)
          reducesTo_S4096x512_S4096_d1 h_S_) shapeCasts_S4096_S4096x1 := by
    dsimp only [V, V0]
    simp only [Gen.hostOps0, List.flatten_cons, List.flatten_nil, List.append_nil]
    after_results
    rfl
  rw [e]
  refine (shapeCast_apply _ _ (ix2 k 0) (ix1 k) ?_).trans (rowSq_read _ _ _ k)
  rw [Shape.rowMajor_val_one, Shape.rowMajor_val_two]
  show k.val = k.val * 1 + 0
  omega

/-- The row of squared lengths the kernel's fourth window stages. -/
theorem V_v3 (k : Fin 4096) :
    (V m c main_v3 : S1x4096.Idx → EReal) (ix2 0 k) = Cert.Pairwise.sq (Cert.Pairwise.mat (argArr m c)) k := by
  have e : (V m c main_v3 : S1x4096.Idx → EReal)
      = shapeCast S1x4096 (Host.reduceAdd (F := Ideal) (mulf (argArr m c) (argArr m c)) (constant (F := Ideal) S_ .f32 0x00000000#32)
          reducesTo_S4096x512_S4096_d1 h_S_) shapeCasts_S4096_S1x4096 := by
    dsimp only [V, V0]
    simp only [Gen.hostOps0, List.flatten_cons, List.flatten_nil, List.append_nil]
    after_results
    rfl
  rw [e]
  exact (shapeCast_a_1a_apply _ _ 0 k).trans (rowSq_read _ _ _ k)

end Cert.KernelIdeal.Hand

end
-- ==== Proof.KI.BlockRead.lean ====
/-
  The kernel's blocks read off the arrays, on the extended reals.

  The grid is 4 × 4; point `t` works on the tile of row block `I = t / 4` against row block `J = t % 4`, the blocks being
  runs of 1024 consecutive rows. An entry `(r, c)` of a window's block is the entry of its array at block number × block
  size + `r` along each axis; with the arrays read off the argument `a`, the first row block at `(r, c)` is
  `a (1024 · I + r, c)` (`iblk0_read`), the second `a (1024 · J + s, c)` (`iblk1_read`), and the column and the row of
  squared lengths are those of rows `1024 · I + r` and `1024 · J + s` (`iblk2_read`, `iblk3_read`). So the closed-form
  tile sum the body forms from its four blocks is the tile `(I, J)` of the argument's matrix (`tile_read`), and on a
  diagonal tile (`I = J`) its diagonal correction is that block's diagonal contribution (`diag_read`).
-/
import proofs.«133118_j73297911873997_2_alg».proof.Proof.KI.EntryRead
import proofs.«133118_j73297911873997_2_alg».proof.Proof.KI.TileVal

noncomputable section

namespace Cert.KernelIdeal.Hand

open Cert.KernelIdeal Cert.KernelIdeal.Gen
open Idealize.ShloMosaic Idealize.ShloMosaic.TcCoe Idealize.ShloMosaic.ValueIdx Idealize.SL.Sem
open scoped BigOperators

variable (m : (ℓ : Loc nD τ sig) → Buf (Elt Ideal) ℓ) (c : Dev nD)

/-- The windows' block numbers at grid point `t` of the 4 × 4 grid: the two row-block windows and the column of squared
    lengths follow the point's row `t / 4` (windows 0 and 2) or its column `t % 4` (window 1) along the rows; the row
    of squared lengths follows the point's column along the columns. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4 :=
  (by decide +kernel : ∀ t : Fin grid0.N, _)

variable (t : Fin cfg0.N) (I J : Fin 4)

/-- The first row block at point `t` is rows `1024 · (t / 4) …` of the argument. -/
theorem iblk0_read (hI : I.val = t.val / 4) (r : Fin 1024) (cc : Fin 512) :
    (iblk m c 0 t : S1024x512.Idx → EReal) (ix2 r cc) = argArr m c (ix2 (Cert.Pairwise.row I r) cc) := by
  obtain ⟨e0, e1, -⟩ := idx_facts t
  show (V m c main_v4 : S4096x512.Idx → EReal) (((cfg0.win 0).blk t).view.emb (ix2 r cc)) = _
  have h : ((cfg0.win 0).blk t).view.emb (ix2 r cc) = ix2 (Cert.Pairwise.row I r) cc := by
    funext a; apply Fin.ext
    match a with
    | ⟨0, _⟩ => show win0_0.index t (0 : Fin 2) * 1024 + 1 * r.val = I.val * 1024 + r.val; omega
    | ⟨1, _⟩ => show win0_0.index t (1 : Fin 2) * 512 + 1 * cc.val = cc.val; omega
  rw [h]
  exact V_v4 m c _ cc

/-- The second row block at point `t` is rows `1024 · (t % 4) …` of the argument. -/
theorem iblk1_read (hJ : J.val = t.val % 4) (s : Fin 1024) (cc : Fin 512) :
    (iblk m c 1 t : S1024x512.Idx → EReal) (ix2 s cc) = argArr m c (ix2 (Cert.Pairwise.row J s) cc) := by
  obtain ⟨-, -, e0, e1, -⟩ := idx_facts t
  show (V m c main_v4 : S4096x512.Idx → EReal) (((cfg0.win 1).blk t).view.emb (ix2 s cc)) = _
  have h : ((cfg0.win 1).blk t).view.emb (ix2 s cc) = ix2 (Cert.Pairwise.row J s) cc := by
    funext a; apply Fin.ext
    match a with
    | ⟨0, _⟩ => show win0_1.index t (0 : Fin 2) * 1024 + 1 * s.val = J.val * 1024 + s.val; omega
    | ⟨1, _⟩ => show win0_1.index t (1 : Fin 2) * 512 + 1 * cc.val = cc.val; omega
  rw [h]
  exact V_v4 m c _ cc

/-- The column block of squared lengths at point `t`: those of rows `1024 · (t / 4) …`. -/
theorem iblk2_read (hI : I.val = t.val / 4) (r : Fin 1024) :
    (iblk m c 2 t : S1024x1.Idx → EReal) (ix2 r 0)
      = Cert.Pairwise.sq (Cert.Pairwise.mat (argArr m c)) (Cert.Pairwise.row I r) := by
  obtain ⟨-, -, -, -, e0, e1, -⟩ := idx_facts t
  show (V m c main_v2 : S4096x1.Idx → EReal) (((cfg0.win 2).blk t).view.emb (ix2 r 0)) = _
  have h : ((cfg0.win 2).blk t).view.emb (ix2 r 0) = ix2 (Cert.Pairwise.row I r) 0 := by
    funext a; apply Fin.ext
    match a with
    | ⟨0, _⟩ => show win0_2.index t (0 : Fin 2) * 1024 + 1 * r.val = I.val * 1024 + r.val; omega
    | ⟨1, _⟩ => show win0_2.index t (1 : Fin 2) * 1 + 1 * 0 = 0; omega
  rw [h]
  exact V_v2 m c _

/-- The row block of squared lengths at point `t`: those of rows `1024 · (t % 4) …`. -/
theorem iblk3_read (hJ : J.val = t.val % 4) (s : Fin 1024) :
    (iblk m c 3 t : S1x1024.Idx → EReal) (ix2 0 s)
      = Cert.Pairwise.sq (Cert.Pairwise.mat (argArr m c)) (Cert.Pairwise.row J s) := by
  obtain ⟨-, -, -, -, -, -, e0, e1⟩ := idx_facts t
  show (V m c main_v3 : S1x4096.Idx → EReal) (((cfg0.win 3).blk t).view.emb (ix2 0 s)) = _
  have h : ((cfg0.win 3).blk t).view.emb (ix2 0 s) = ix2 0 (Cert.Pairwise.row J s) := by
    funext a; apply Fin.ext
    match a with
    | ⟨0, _⟩ => show win0_3.index t (0 : Fin 2) * 1 + 1 * 0 = 0; omega
    | ⟨1, _⟩ => show win0_3.index t (1 : Fin 2) * 1024 + 1 * s.val = J.val * 1024 + s.val; omega
  rw [h]
  exact V_v3 m c _

/-- The body's closed-form tile sum, formed from the four blocks at point `t`, is the tile `(t / 4, t % 4)` of the
    argument's matrix. -/
theorem tile_read (hI : I.val = t.val / 4) (hJ : J.val = t.val % 4) :
    tileVal (iblk m c 0 t) (iblk m c 1 t) (iblk m c 2 t) (iblk m c 3 t)
      = Cert.Pairwise.tile (Cert.Pairwise.mat (argArr m c)) I J := by
  unfold tileVal Cert.Pairwise.tile Cert.Pairwise.rowSum Cert.Pairwise.gramSum Cert.Pairwise.gram
  refine congrArg (· * _) ?_
  refine congrArg₂ (· - ·)
    (congrArg₂ (· + ·)
      (congrArg (_ * ·) (Finset.sum_congr rfl fun r _ => iblk2_read m c t I hI r))
      (congrArg (_ * ·) (Finset.sum_congr rfl fun s _ => iblk3_read m c t J hJ s)))
    (congrArg (_ * ·) (Finset.sum_congr rfl fun r _ => Finset.sum_congr rfl fun s _ =>
      Finset.sum_congr rfl fun cc _ => ?_))
  exact congrArg₂ (· * ·) (iblk0_read m c t I hI r cc) (iblk1_read m c t J hJ s cc)

/-- On a diagonal tile the body's diagonal correction, formed from the blocks at point `t`, is the diagonal pairs'
    contribution of block `t / 4`. -/
theorem diag_read (hI : I.val = t.val / 4) (h : t.val / 4 = t.val % 4) :
    diagVal (iblk m c 0 t) (iblk m c 1 t) (iblk m c 2 t)
      = Cert.Pairwise.diag (Cert.Pairwise.mat (argArr m c)) I := by
  unfold diagVal Cert.Pairwise.diag Cert.Pairwise.rowSum Cert.Pairwise.traceSum Cert.Pairwise.gram
  refine congrArg (· * _) ?_
  refine congrArg₂ (· - ·)
    (congrArg (_ * ·) (Finset.sum_congr rfl fun r _ => iblk2_read m c t I hI r))
    (congrArg (_ * ·) (Finset.sum_congr rfl fun r _ => Finset.sum_congr rfl fun s _ =>
      congrArg (fun z : EReal => if r = s then z else 0) (Finset.sum_congr rfl fun cc _ => ?_)))
  exact congrArg₂ (· * ·) (iblk0_read m c t I hI r cc) (iblk1_read m c t I (hI.trans h) s cc)

end Cert.KernelIdeal.Hand

end
-- ==== Proof.KI.Accum.lean ====
/-
  The accumulator block of row block i after each of its four points: its first cell holds the running value of the
  specification (the tiles of the row added in order, the diagonal one less its correction), every other cell zero —
  by induction on the column coordinate, the reset at column zero starting it.
-/
import proofs.«133118_j73297911873997_2_alg».proof.Proof.KI.Cells
import proofs.«133118_j73297911873997_2_alg».proof.Proof.KI.BlockRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.Pairwise
open scoped BigOperators

variable (mI : (ℓ : Loc nD τ sig) → Buf (Elt Ideal) ℓ)

/-- The specification's running value for row block `i` after columns `0 … j`. -/
def accN (A : Fin 4096 → Fin 512 → EReal) (i : Fin 4) : ℕ → EReal
  | 0 => step A i 0 0
  | j + 1 => step A i (Fin.ofNat 4 (j + 1)) (accN A i j)

theorem accN_three (A : Fin 4096 → Fin 512 → EReal) (i : Fin 4) : accN A i 3 = acc A i := rfl

theorem outsAt0_congr (c : Dev nD) {n n' : ℕ} (e : n = n') (h : n < cfg0.N) (h' : n' < cfg0.N) :
    outsAt0 (F := Ideal) mI c n h = outsAt0 mI c n' h' := by subst e; rfl

/-- An index of the block other than the origin. -/
theorem off_origin (y : S8x128.Idx) (h : ¬((y 0).val = 0 ∧ (y 1).val = 0)) : (y 0).val ≠ 0 ∨ (y 1).val ≠ 0 := by
  by_cases h0 : (y 0).val = 0
  · exact Or.inr fun h1 => h ⟨h0, h1⟩
  · exact Or.inl h0

theorem origin_eq (y : S8x128.Idx) (h : (y 0).val = 0 ∧ (y 1).val = 0) : y = ix2 0 0 :=
  funext fun a => Fin.ext (by match a with | ⟨0, _⟩ => exact h.1 | ⟨1, _⟩ => exact h.2)

/-- After the point of row block `i`, column `j`: the running value in the first cell, zero elsewhere. -/
theorem outsAt0_cell (c : Dev nD) (i : ℕ) (hi : i < 4) : ∀ (j : ℕ) (hj : j < 4) (h : 4 * i + j < cfg0.N) (y : S8x128.Idx),
    outsAt0 (F := Ideal) mI c (4 * i + j) h y
      = if (y 0).val = 0 ∧ (y 1).val = 0 then accN (mat (argArr mI c)) ⟨i, hi⟩ j else 0
  | 0, hj, h, y => by
    let t : Fin cfg0.N := ⟨4 * i + 0, h⟩
    have h0 : t.val % 4 = 0 := by show (4 * i + 0) % 4 = 0; omega
    have hI : (⟨i, hi⟩ : Fin 4).val = t.val / 4 := by show i = (4 * i + 0) / 4; omega
    have hJ : ((0 : Fin 4)).val = t.val % 4 := by show 0 = (4 * i + 0) % 4; omega
    show outsAt0 mI c t.val t.isLt y = _
    by_cases h1 : t.val / 4 = t.val % 4
    · rw [outsAt0_A mI c t h0 h1]
      have hij : (⟨i, hi⟩ : Fin 4) = 0 := Fin.ext (by show i = 0; have : (4 * i + 0) / 4 = (4 * i + 0) % 4 := h1; omega)
      split
      · rename_i hy
        rw [origin_eq y hy, outA_origin, tile_read mI c t ⟨i, hi⟩ 0 hI hJ, diag_read mI c t ⟨i, hi⟩ hI h1]
        show _ = step _ _ 0 0
        unfold step; rw [if_pos hij]
      · rename_i hy
        exact outA_off _ _ _ _ _ _ _ _ _ _ _ _ _ _ _ _ _ _ y (off_origin y hy)
    · rw [outsAt0_B mI c t h0 h1]
      have hij : (⟨i, hi⟩ : Fin 4) ≠ 0 := fun e => h1 (by
        have : i = 0 := congrArg Fin.val e
        show (4 * i + 0) / 4 = (4 * i + 0) % 4; omega)
      split
      · rename_i hy
        rw [origin_eq y hy, outB_origin, tile_read mI c t ⟨i, hi⟩ 0 hI hJ]
        show _ = step _ _ 0 0
        unfold step; rw [if_neg hij]
      · rename_i hy
        exact outB_off _ _ _ _ _ _ _ _ _ _ _ _ _ _ _ _ _ _ y (off_origin y hy)
  | j + 1, hj, h, y => by
    let t : Fin cfg0.N := ⟨4 * i + (j + 1), h⟩
    have h0 : ¬t.val % 4 = 0 := by show ¬(4 * i + (j + 1)) % 4 = 0; omega
    have hI : (⟨i, hi⟩ : Fin 4).val = t.val / 4 := by show i = (4 * i + (j + 1)) / 4; omega
    have hJ : (Fin.ofNat 4 (j + 1)).val = t.val % 4 := by
      show (j + 1) % 4 = (4 * i + (j + 1)) % 4; omega
    have hprev : ∀ y', outsAt0 (F := Ideal) mI c (t.val - 1) (Nat.lt_of_le_of_lt (Nat.sub_le _ _) t.isLt) y'
        = if (y' 0).val = 0 ∧ (y' 1).val = 0 then accN (mat (argArr mI c)) ⟨i, hi⟩ j else 0 := fun y' => by
      rw [outsAt0_congr mI c (show t.val - 1 = 4 * i + j by show 4 * i + (j + 1) - 1 = 4 * i + j; omega) _
        (by have := h; omega)]
      exact outsAt0_cell c i hi j (by omega) _ y'
    show outsAt0 mI c t.val t.isLt y = _
    by_cases h1 : t.val / 4 = t.val % 4
    · rw [outsAt0_C mI c t h0 h1]
      have hij : (⟨i, hi⟩ : Fin 4) = Fin.ofNat 4 (j + 1) := Fin.ext (by rw [hI, hJ]; exact h1)
      split
      · rename_i hy
        rw [origin_eq y hy, outC_origin, hprev, if_pos ⟨rfl, rfl⟩, tile_read mI c t ⟨i, hi⟩ (Fin.ofNat 4 (j + 1)) hI hJ, diag_read mI c t ⟨i, hi⟩ hI h1]
        show _ = step _ _ _ _
        unfold step; rw [if_pos hij]
      · rename_i hy
        rw [outC_off _ _ _ _ _ _ _ _ _ _ _ _ _ _ _ _ _ _ _ y (off_origin y hy), hprev, if_neg hy]
    · rw [outsAt0_D mI c t h0 h1]
      have hij : (⟨i, hi⟩ : Fin 4) ≠ Fin.ofNat 4 (j + 1) := fun e => h1 (by rw [← hI, ← hJ]; exact congrArg Fin.val e)
      split
      · rename_i hy
        rw [origin_eq y hy, outD_origin, hprev, if_pos ⟨rfl, rfl⟩, tile_read mI c t ⟨i, hi⟩ (Fin.ofNat 4 (j + 1)) hI hJ]
        show _ = step _ _ _ _
        unfold step; rw [if_neg hij]
      · rename_i hy
        rw [outD_off _ _ _ _ _ _ _ _ _ _ _ _ _ _ _ _ _ _ _ y (off_origin y hy), hprev, if_neg hy]

theorem blk_lt (t : Fin cfg0.N) : t.val / 4 < 4 := by
  have h : t.val < 16 := lt_of_lt_of_eq t.isLt (show cfg0.N = 16 from N_0)
  omega

/-- At the points that write the block back (column 3) the first cell holds the row block's whole accumulator. -/
theorem outsAt0_flush (c : Dev nD) (t : Fin cfg0.N) (ht : t.val % 4 = 3) (y : S8x128.Idx) :
    outsAt0 (F := Ideal) mI c t.val t.isLt y
      = if (y 0).val = 0 ∧ (y 1).val = 0 then acc (mat (argArr mI c)) ⟨t.val / 4, blk_lt t⟩ else 0 := by
  have hN : t.val < 16 := lt_of_lt_of_eq t.isLt (show cfg0.N = 16 from N_0)
  have hlt : 4 * (t.val / 4) + 3 < cfg0.N := lt_of_lt_of_eq (show 4 * (t.val / 4) + 3 < 16 by omega) (show (16 : ℕ) = cfg0.N from N_0.symm)
  rw [outsAt0_congr mI c (show t.val = 4 * (t.val / 4) + 3 by omega) t.isLt hlt,
    outsAt0_cell mI c (t.val / 4) (by omega) 3 (by omega) hlt y, accN_three]

end Cert.KernelIdeal.Hand

end
-- ==== Proof.KI.FinalArray.lean ====
/-
  The output array after the run, from what each row's last grid point writes back.

  The output window cuts the 32 × 128 result into four blocks of eight rows; the block of row block `i` is written back
  once, after the last of that row's four points (`t % 4 = 3`, `i = t / 4`). If what the staging buffer holds there is
  `g i` in its first cell and zero elsewhere, then each written block is its block of one array (`cellArray g`,
  `flushed_out`), the four blocks cover the array (`cover_out`: index `(p, q)` is in the block of point
  `4 · (p / 8) + 3`), and so the array ends holding `g (p / 8)` at `(p, 0)` for `p` a multiple of eight and zero
  elsewhere (`final_array`).
-/
import proofs.«133118_j73297911873997_2_alg».proof.Proof.KI.Body
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (c : Dev nD)

/-- A grid point's row block is one of the four. -/
theorem rowBlk_lt (t : Fin cfg0.N) : t.val / 4 < 4 := by
  have h : t.val < 16 := lt_of_lt_of_eq t.isLt (show cfg0.N = 16 from N_0)
  omega

/-- The output window's block number at grid point `t`: the point's row `t / 4` along the rows, `0` along the columns. -/
theorem idx_out : ∀ t : Fin cfg0.N, win0_4.index t (0 : Fin 2) = t.val / 4 ∧ win0_4.index t (1 : Fin 2) = 0 :=
  (by decide +kernel : ∀ t : Fin grid0.N, _)

/-- A function on the four row blocks, extended by zero to every natural number. -/
def onBlocks (g : Fin 4 → EReal) (n : ℕ) : EReal := if h : n < 4 then g ⟨n, h⟩ else 0

/-- The 32 × 128 array that holds `g i` in the first cell of its `i`-th block of eight rows and zero elsewhere. -/
def cellArray (g : Fin 4 → EReal) : S32x128.Idx → EReal :=
  fun idx => if (idx 0).val % 8 = 0 ∧ (idx 1).val = 0 then onBlocks g ((idx 0).val / 8) else 0

/-- An index of the array is in point `t`'s block iff each coordinate is in the block's range on its axis. -/
theorem mem_blk_out (t : Fin cfg0.N) (i : S32x128.Idx) :
    i ∈ ((cfg0.win 4).blk t).view.set ↔ ∀ a : Fin 2, win0_4.index t a * S8x128.size a ≤ (i a).val
      ∧ (i a).val < win0_4.index t a * S8x128.size a + S8x128.size a := by
  show i ∈ ((View.whole main_v5).slice (win0_4.rect t)).set ↔ _
  rw [View.set_slice_whole, Rect.mem_set_unit]
  exact Iff.rfl

variable (g : Fin 4 → EReal)
  (hcell : ∀ (t : Fin cfg0.N), t.val % 4 = 3 → ∀ y : S8x128.Idx,
    outsAt0 (F := Ideal) m c t.val t.isLt y = if (y 0).val = 0 ∧ (y 1).val = 0 then g ⟨t.val / 4, rowBlk_lt t⟩ else 0)

include hcell in
/-- What a row's last point writes back is its block of `cellArray g`. -/
theorem flushed_out (t : Fin cfg0.N) (hf : t.val % 4 = 3) :
    (dats m 0 c).flushed 4 t = ((cfg0.win 4).blk t).view.read (Elt Ideal) (cellArray g) := by
  show (cfg0.win 4).cut (grid0.coords t) ((dats m 0 c).after 4 t) = _
  rw [after0_4]
  funext y
  show outsAt0 m c t.val t.isLt y = cellArray g (((cfg0.win 4).blk t).view.emb y)
  obtain ⟨i0, i1⟩ := idx_out t
  have hy0 : (y 0).val < 8 := (y 0).isLt
  have e0 : ((((cfg0.win 4).blk t).view.emb y) 0).val = t.val / 4 * 8 + (y 0).val := by
    show win0_4.index t (0 : Fin 2) * 8 + 1 * (y 0).val = _
    omega
  have e1 : ((((cfg0.win 4).blk t).view.emb y) 1).val = (y 1).val := by
    show win0_4.index t (1 : Fin 2) * 128 + 1 * (y 1).val = _
    omega
  have hmod : (t.val / 4 * 8 + (y 0).val) % 8 = (y 0).val := by omega
  have hdiv : (t.val / 4 * 8 + (y 0).val) / 8 = t.val / 4 := by omega
  rw [hcell t hf y]
  unfold cellArray
  dsimp only
  rw [e0, e1, hmod, hdiv]
  refine if_congr Iff.rfl ?_ rfl
  unfold onBlocks
  rw [dif_pos (rowBlk_lt t)]

/-- Every index of the array is in the block of its row block's last point. -/
theorem cover_out (i : S32x128.Idx) :
    ∃ t : Fin cfg0.N, (cfg0.win 4).flush t = true ∧ i ∈ ((cfg0.win 4).blk t).view.set := by
  have hi0 : (i 0).val < 32 := (i 0).isLt
  have hi1 : (i 1).val < 128 := (i 1).isLt
  have hN : 4 * ((i 0).val / 8) + 3 < cfg0.N := by
    rw [show cfg0.N = 16 from N_0]
    omega
  refine ⟨⟨4 * ((i 0).val / 8) + 3, hN⟩, (flush0_4 _).mpr (by show (4 * ((i 0).val / 8) + 3) % 4 = 3; omega), ?_⟩
  obtain ⟨i0, i1⟩ := idx_out ⟨4 * ((i 0).val / 8) + 3, hN⟩
  have i0' : win0_4.index ⟨4 * ((i 0).val / 8) + 3, hN⟩ (0 : Fin 2) = (4 * ((i 0).val / 8) + 3) / 4 := i0
  rw [mem_blk_out]
  intro a
  match a with
  | ⟨0, _⟩ =>
    show win0_4.index ⟨4 * ((i 0).val / 8) + 3, hN⟩ (0 : Fin 2) * 8 ≤ (i 0).val
      ∧ (i 0).val < win0_4.index ⟨4 * ((i 0).val / 8) + 3, hN⟩ (0 : Fin 2) * 8 + 8
    omega
  | ⟨1, _⟩ =>
    show win0_4.index ⟨4 * ((i 0).val / 8) + 3, hN⟩ (1 : Fin 2) * 128 ≤ (i 1).val
      ∧ (i 1).val < win0_4.index ⟨4 * ((i 0).val / 8) + 3, hN⟩ (1 : Fin 2) * 128 + 128
    omega

include hcell in
/-- THE OUTPUT ARRAY after the run: `g i` in the first cell of the `i`-th block of eight rows, zero elsewhere. -/
theorem final_array (p : Fin 32) (q : Fin 128) :
    ((dats m 0 c).arrAt 4 cfg0.N : S32x128.Idx → EReal) (ix2 p q)
      = if p.val % 8 = 0 ∧ q.val = 0 then g ⟨p.val / 8, by omega⟩ else 0 := by
  have h := (dats m 0 c).arrAt_eq_of_cover 4 (cellArray g)
    (fun t hf => flushed_out m c g hcell t ((flush0_4 t).mp hf)) cover_out
  rw [h]
  show (if p.val % 8 = 0 ∧ q.val = 0 then onBlocks g (p.val / 8) else 0) = _
  refine if_congr Iff.rfl ?_ rfl
  unfold onBlocks
  rw [dif_pos (show p.val / 8 < 4 by omega)]

end Cert.KernelIdeal.Hand

end
-- ==== Proof.KI.Launch1.lean ====
/-
  The region's entry: how the buffers a core holds when the region is entered make the arrays the pipeline wants.

  The region has five windows on FOUR arrays: windows 0 and 1 both read the matrix's cast, windows 2 and 3 read the two
  reshaped vectors of squared row lengths, window 4 writes the result. Each array is a whole buffer. The pipeline wants
  one points-to per window, at that window's share: the cast matrix's full share is cut into its left and right halves,
  one per reading window; the two vectors and the result are handed over whole.
-/
import proofs.«133118_j73297911873997_2_alg».proof.Proof.KI.Entry

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays, one by one: the matrix's cast, the two reshaped row-length vectors, the result. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v4) ↦{fullShare} V main_v4) ∗ (((c : Thread nD τ).loc main_v2) ↦{fullShare} V main_v2)
          ∗ (((c : Thread nD τ).loc main_v3) ↦{fullShare} V main_v3) ∗ (((c : Thread nD τ).loc main_v5) ↦{fullShare} V main_v5)) := by
  unfold Pipeline.arrBufs
  exact bigSep_eq_bigSepL_of_eq [main_v4, main_v2, main_v3, main_v5] (by decide) (by decide) _

/-- The five windows' arrays one by one, each a whole buffer at the window's share: windows 0 and 1 both on the cast matrix. -/
theorem arrays0_eq (c : Dev nD) (dat : Dat τ (Elt F) Unit ℕ (UR sig nD τ) ℕ cfg0 c)
    (G : (w : Fin cfg0.W) → Buf (Elt F) ((cfg0.win w).arr.view.loc (c : Thread nD τ))) :
    (dat.arrays G : sProp 𝕄) = iprop((((c : Thread nD τ).loc main_v4) ↦{dat.share 0} G 0) ∗ (((c : Thread nD τ).loc main_v4) ↦{dat.share 1} G 1)
          ∗ (((c : Thread nD τ).loc main_v2) ↦{dat.share 2} G 2) ∗ (((c : Thread nD τ).loc main_v3) ↦{dat.share 3} G 3)
          ∗ (((c : Thread nD τ).loc main_v5) ↦{dat.share 4} G 4)) := by
  unfold Dat.arrays
  rw [bigSep_W0]
  rw [(arr_whole0 0).set_eq_univ, (arr_whole0 2).set_eq_univ, (arr_whole0 3).set_eq_univ, (arr_whole0 4).set_eq_univ]

theorem share0 (c : Dev nD) (dat : Dat τ (Elt F) Unit ℕ (UR sig nD τ) ℕ cfg0 c) : dat.share 0 = dat.q 0 := if_neg (by decide)
theorem share1 (c : Dev nD) (dat : Dat τ (Elt F) Unit ℕ (UR sig nD τ) ℕ cfg0 c) : dat.share 1 = dat.q 1 := if_neg (by decide)
theorem share2 (c : Dev nD) (dat : Dat τ (Elt F) Unit ℕ (UR sig nD τ) ℕ cfg0 c) : dat.share 2 = dat.q 2 := if_neg (by decide)
theorem share3 (c : Dev nD) (dat : Dat τ (Elt F) Unit ℕ (UR sig nD τ) ℕ cfg0 c) : dat.share 3 = dat.q 3 := if_neg (by decide)
theorem share4 (c : Dev nD) (dat : Dat τ (Elt F) Unit ℕ (UR sig nD τ) ℕ cfg0 c) : dat.share 4 = fullShare := if_pos (by decide)

/-- At the region's entry the buffers behind the arrays make the pipeline's arrays: the cast matrix's full share is cut
    into its two halves, one for each of the two windows that read it; the other three pass whole. -/
theorem hsplit (c : Dev nD) (dat : Dat τ (Elt F) Unit ℕ (UR sig nD τ) ℕ cfg0 c)
    (hq0 : dat.q 0 = fullShare.left) (hq1 : dat.q 1 = fullShare.right) (hq2 : dat.q 2 = fullShare) (hq3 : dat.q 3 = fullShare)
    (hA : ∀ w, dat.A w = V m c (Pipeline.arrRef spec0 w)) :
    (Pipeline.arrBufs (Ix := Unit) (Name := ℕ) (U := UR sig nD τ) (Lvl := ℕ) spec0 c (V m c) : sProp 𝕄) ⊢ dat.arrays (dat.arrAt · 0) := by
  rw [arrBufs0_eq, arrays0_eq, share0, share1, share2, share3, share4, hq0, hq1, hq2, hq3]
  show _ ⊢ iprop((_ ↦{_} dat.A 0) ∗ (_ ↦{_} dat.A 1) ∗ (_ ↦{_} dat.A 2) ∗ (_ ↦{_} dat.A 3) ∗ (_ ↦{_} dat.A 4))
  rw [hA 0, hA 1, hA 2, hA 3, hA 4]
  iintro ⟨H4, H2, H3, H5⟩
  ihave H4' := (pointsTo_share (PosShare.mem_left_op_right fullShare)).1 $$ H4
  icases H4' with ⟨H4l, H4r⟩
  isplitl [H4l]; · iexact H4l
  isplitl [H4r]; · iexact H4r
  isplitl [H2]; · iexact H2
  isplitl [H3]; · iexact H3
  iexact H5

end Cert.KernelIdeal.Hand

end
-- ==== Proof.KI.Launch2.lean ====
/-
  The region's exit: the four operations that follow the region — a zero constant, the sum of the result array's
  entries, the constant 16773120 (the number of ordered pairs of distinct rows, 4096 · 4095), and their quotient — run
  from what the region leaves.

  They touch five buffers only: the result array, which they read, and the four buffers they write. At the region's exit
  the result array holds what the pipeline computed and every other buffer what it held at the entry (`exitVal`). The
  result array's points-to is taken out of the pipeline's arrays, the four written buffers' out of the buffers that
  bypass the region; the five are run through the operations as one held set; then the result array, which no operation
  writes, goes back among the arrays unchanged, and the bypassing buffers are handed back at their contents after the
  operations (`endVal`). The other four windows' points-tos are not touched.
-/
import proofs.«133118_j73297911873997_2_alg».proof.Proof.KI.Launch1

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The device buffers the four later operations touch: the result, the two constants, the sum, the quotient. -/
def tailList : List (DevRef τ sig) :=
  [Proc.devRef .tc main_v5, Proc.devRef .tc main_cst_0, Proc.devRef .tc main_v6, Proc.devRef .tc main_cst_1, Proc.devRef .tc main_v7]

theorem tailList_nodup : tailList.Nodup := by decide

/-- The core's buffer contents at the region's exit: the result array at `X`, every other buffer as at the entry. -/
def exitVal (c : Dev nD) (X : Buf (Elt F) ((c : Thread nD τ).loc main_v5)) : Valuation τ sig (Elt F) :=
  Function.update (V0 m c) (Proc.devRef .tc main_v5) X

theorem exitVal_v5 (c : Dev nD) (X : Buf (Elt F) ((c : Thread nD τ).loc main_v5)) :
    exitVal m c X (Proc.devRef .tc main_v5) = X := Function.update_self ..

theorem exitVal_of_ne (c : Dev nD) (X : Buf (Elt F) ((c : Thread nD τ).loc main_v5)) (b : Ref sig .tc) (hb : b ≠ main_v5) :
    exitVal m c X (Proc.devRef .tc b) = V m c b :=
  Function.update_of_ne (StableHlo.devRef_ne_of_ne hb) ..

/-- The five buffers held whole at a valuation, one by one. -/
theorem held_tail (c : Dev nD) (W : Valuation τ sig (Elt F)) :
    (StableHlo.held (c : Thread nD τ) tailList.toFinset W : sProp 𝕄)
      = iprop((((c : Thread nD τ).loc main_v5) ↦{fullShare} W (Proc.devRef .tc main_v5)) ∗ (((c : Thread nD τ).loc main_cst_0) ↦{fullShare} W (Proc.devRef .tc main_cst_0))
          ∗ (((c : Thread nD τ).loc main_v6) ↦{fullShare} W (Proc.devRef .tc main_v6)) ∗ (((c : Thread nD τ).loc main_cst_1) ↦{fullShare} W (Proc.devRef .tc main_cst_1))
          ∗ (((c : Thread nD τ).loc main_v7) ↦{fullShare} W (Proc.devRef .tc main_v7))) := by
  unfold StableHlo.held
  exact bigSep_eq_bigSepL tailList tailList_nodup _

/-- Each of the four later operations touches only those five buffers. -/
theorem hostOps1_bufs : ∀ ops ∈ [(hostOps1 : List (HloOp τ sig (Elt F)))], ∀ op ∈ ops, op.bufs ⊆ tailList.toFinset := by
  intro ops hops op hop
  rw [List.mem_singleton] at hops; subst hops
  simp only [List.mem_cons, List.mem_nil_iff, or_false] at hop
  rcases hop with rfl | rfl | rfl | rfl
  · rw [StableHlo.nullary_bufs]; decide
  · rw [StableHlo.binary_bufs]; decide
  · rw [StableHlo.nullary_bufs]; decide
  · rw [StableHlo.binary_bufs]; decide

theorem hostOps1_fresh' : ∀ ops ∈ [(hostOps1 : List (HloOp τ sig (Elt F)))], ∀ op ∈ ops, op.fresh = ∅ := by
  intro ops hops op hop
  rw [List.mem_singleton] at hops; subst hops
  exact (List.forall_iff_forall_mem.mp hostOps1_fresh) op hop

/-- A buffer that is none of the four results is written by none of the four later operations. -/
theorem not_written1 (b : Ref sig .tc) (hb : b ≠ main_cst_0 ∧ b ≠ main_v6 ∧ b ≠ main_cst_1 ∧ b ≠ main_v7) :
    ∀ op ∈ (hostOps1 : List (HloOp τ sig (Elt F))), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.binary_writes, StableHlo.nullary_writes, Finset.mem_singleton] <;>
    exact StableHlo.devRef_ne_of_ne ‹_›

/-- So it holds after them what it held before. -/
theorem after1_of_ne (W : Valuation τ sig (Elt F)) (b : Ref sig .tc) (hb : b ≠ main_cst_0 ∧ b ≠ main_v6 ∧ b ≠ main_cst_1 ∧ b ≠ main_v7) :
    StableHlo.after hostOps1 W (Proc.devRef .tc b) = W (Proc.devRef .tc b) :=
  StableHlo.after_of_forall_not_mem hostOps1 W (not_written1 b hb)

/-- What a TensorCore buffer holds after the four later operations, run from the region's exit. -/
def endVal (c : Dev nD) (X : Buf (Elt F) ((c : Thread nD τ).loc main_v5)) (b : Ref sig .tc) : Buf (Elt F) ((c : Thread nD τ).loc b) :=
  StableHlo.after hostOps1 (exitVal m c X) (Proc.devRef .tc b)

-- a rule stated for any thread, applied at the TensorCore thread, unifies only when unification may unfold plain
-- definitions in a metavariable's type
set_option backward.isDefEq.respectTransparency.types false in
/-- THE LINES AFTER THE REGION: from the boundary, the pipeline's arrays at their final contents and the bypassing buffers
    at their entry contents, the four operations run and hand back the arrays as they were and the bypassing buffers at
    `endVal`. -/
theorem htail (𝒱₀ : Variants) (c : Dev nD) (dat : Dat τ (Elt F) Unit ℕ (UR sig nD τ) ℕ cfg0 c) (Q' : PUnit → sProp 𝕄) :
    iprop((iprop(dat.arrays (dat.arrAt · cfg0.N) ∗ Pipeline.unscopedRest (Ix := Unit) (Name := ℕ) (U := UR sig nD τ) (Lvl := ℕ) spec0 c (endVal m c (dat.arrAt 4 cfg0.N))) -∗ Q' ⟨⟩)
        ∗ boundary (c : Thread nD τ) ∗ dat.arrays (dat.arrAt · cfg0.N) ∗ Pipeline.unscopedRest (Ix := Unit) (Name := ℕ) (U := UR sig nD τ) (Lvl := ℕ) spec0 c (V m c))
      ⊢ wp frame (wpE (Pipeline.defs (pcfgs (F := F)) defs₀) (Variants.lift 𝒱₀) (c : Thread nD τ) none) Set.univ (Pipeline.chain [StableHlo.seq hostOps1]) Q' := by
  have h := Pipeline.wp_seqs_then (Ix := Unit) (Name := ℕ) (U := UR sig nD τ) (Lvl := ℕ) (pcfgs (F := F)) defs₀ 𝒱₀ c tailList.toFinset [] [hostOps1]
    hostOps1_bufs hostOps1_fresh' (exitVal m c (dat.arrAt 4 cfg0.N)) (K := Q')
  rw [held_tail, held_tail, show ([hostOps1] : List (List (HloOp τ sig (Elt F)))).flatten = hostOps1 from List.append_nil _,
    exitVal_v5, exitVal_of_ne m c _ main_cst_0 (by decide), exitVal_of_ne m c _ main_v6 (by decide),
    exitVal_of_ne m c _ main_cst_1 (by decide), exitVal_of_ne m c _ main_v7 (by decide),
    after1_of_ne _ main_v5 (by decide), exitVal_v5, Pipeline.chain_nil, wp_pure] at h
  rw [arrays0_eq, share4, unscopedRest0_eq, unscopedRest0_eq]
  simp only [endVal]
  rw [after1_of_ne _ main_arg0 (by decide), after1_of_ne _ main_v0 (by decide), after1_of_ne _ main_cst (by decide),
    after1_of_ne _ main_v1 (by decide), exitVal_of_ne m c _ main_arg0 (by decide), exitVal_of_ne m c _ main_v0 (by decide),
    exitVal_of_ne m c _ main_cst (by decide), exitVal_of_ne m c _ main_v1 (by decide)]
  iintro ⟨Hk, Hb, ⟨Ha0, Ha1, Ha2, Ha3, Ha4⟩, ⟨Harg0, Hv0, Hcst, Hv1, Hcst0, Hv6, Hcst1, Hv7⟩⟩
  iapply h $$ [Hb Ha4 Hcst0 Hv6 Hcst1 Hv7]
  · isplitl [Hb]; · iexact Hb
    isplitl [Ha4]; · iexact Ha4
    isplitl [Hcst0]; · iexact Hcst0
    isplitl [Hv6]; · iexact Hv6
    isplitl [Hcst1]; · iexact Hcst1
    iexact Hv7
  iintro ⟨Hb, Ha4, Hcst0, Hv6, Hcst1, Hv7⟩
  imodintro
  iapply Hk
  isplitl [Ha0 Ha1 Ha2 Ha3 Ha4]
  · isplitl [Ha0]; · iexact Ha0
    isplitl [Ha1]; · iexact Ha1
    isplitl [Ha2]; · iexact Ha2
    isplitl [Ha3]; · iexact Ha3
    iexact Ha4
  isplitl [Harg0]; · iexact Harg0
  isplitl [Hv0]; · iexact Hv0
  isplitl [Hcst]; · iexact Hcst
  isplitl [Hv1]; · iexact Hv1
  isplitl [Hcst0]; · iexact Hcst0
  isplitl [Hv6]; · iexact Hv6
  isplitl [Hcst1]; · iexact Hcst1
  iexact Hv7

end Cert.KernelIdeal.Hand

end
-- ==== Proof.KI.Launch.lean ====
/-
  The run of the idealized kernel's program around its one region, from abstract proof data for the region's body.

  The program is six operations, the region (a 4 × 4 grid, five windows on four arrays), four operations. The library's
  launch theorem for a region continued by later lines is instantiated at: the entry split of the buffers behind the
  arrays into one points-to per window (the cast matrix's halves for its two reading windows); the body's invariant
  being the core's scoped rest and its generator register at every point; the lines after the region run from the
  region's exit contents; and a final reading of two buffers that bypass the region — the quotient's, which holds what
  the four later operations compute from the result array the pipeline leaves, and the argument's, which no operation
  writes and the region does not see, so that it ends as it was launched.
-/
import proofs.«133118_j73297911873997_2_alg».proof.Proof.KI.Launch2

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that is none of the six results of the earlier operations is written by none of them. -/
theorem not_written0 (b : Ref sig .tc) (hb : b ≠ main_v0 ∧ b ≠ main_cst ∧ b ≠ main_v1 ∧ b ≠ main_v2 ∧ b ≠ main_v3 ∧ b ≠ main_v4) :
    ∀ op ∈ List.flatten [(hostOps0 : List (HloOp τ sig (Elt F)))], Proc.devRef .tc b ∉ op.writes := by
  obtain ⟨h0, h1, h2, h3, h4, h5⟩ := hb
  intro op hop
  simp only [List.flatten_cons, List.flatten_nil, List.append_nil, List.mem_cons, List.mem_nil_iff, or_false] at hop
  rcases hop with rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- The argument reaches the region as launched, -/
theorem V_arg0 (c : Dev nD) : V m c main_arg0 = m ((c : Thread nD τ).loc main_arg0) :=
  StableHlo.after_of_forall_not_mem (b := Proc.devRef .tc main_arg0) _ _ (not_written0 main_arg0 (by decide))

/-- and the end: no operation before or after the region writes it, and the region does not see it. -/
theorem endVal_arg0 (c : Dev nD) (X : Buf (Elt F) ((c : Thread nD τ).loc main_v5)) :
    endVal m c X main_arg0 = m ((c : Thread nD τ).loc main_arg0) := by
  unfold endVal
  rw [after1_of_ne _ main_arg0 (by decide), exitVal_of_ne m c X main_arg0 (by decide), V_arg0]

/-- The final state's quotient buffer and argument buffer, read off the bypassing buffers' points-tos. -/
theorem hY (c : Dev nD) (X : Buf (Elt F) ((c : Thread nD τ).loc main_v5)) (s' : Phys nD τ sig (Elt F)) :
    iprop((∃ r, prngReg c r) ∗ Pipeline.unscopedRest (Ix := Unit) (Name := ℕ) (U := UR sig nD τ) (Lvl := ℕ) spec0 c (endVal m c X) ∗ SI s')
      ⊢ |={Set.univ}=> iprop(⌜s'.mem.mem ((c : Thread nD τ).loc main_v7) = endVal m c X main_v7
            ∧ s'.mem.mem ((c : Thread nD τ).loc main_arg0) = m ((c : Thread nD τ).loc main_arg0)⌝ ∗ (SI s' : sProp 𝕄)) := by
  rw [unscopedRest0_eq, endVal_arg0]
  iintro ⟨-, ⟨Harg0, -, -, -, -, -, -, Hv7⟩, HSI⟩
  icombine HSI Harg0 gives %h0
  icombine HSI Hv7 gives %h7
  imodintro
  isplitr; · ipureintro; exact ⟨Buf.eq_of_forall_mem_univ h7, Buf.eq_of_forall_mem_univ h0⟩
  iexact HSI

-- the launch theorem's implicit arguments are found by unifying its conclusion with this one, which takes unfolding
-- plain definitions in a metavariable's type
set_option backward.isDefEq.respectTransparency.types false in
/-- THE RUN around the region, from abstract proof data for its body: every weakly fair execution of the program from a
    launch memory terminates without a fault, and at the end the quotient's buffer holds what the four later operations
    compute from the result array the pipeline leaves, and the argument's buffer is unchanged. -/
theorem run_around
    (dats : (p : Fin 1) → (c : Dev nD) → Pipeline.Dat τ (Elt F) Unit ℕ (UR sig nD τ) ℕ (cfgs p) c)
    (hbody : ∀ c, Pipeline.BodyObligationLoose (dats 0 c) defs₀ Variants.none () Set.univ)
    (hq0 : ∀ c, (dats 0 c).q 0 = fullShare.left) (hq1 : ∀ c, (dats 0 c).q 1 = fullShare.right)
    (hq2 : ∀ c, (dats 0 c).q 2 = fullShare) (hq3 : ∀ c, (dats 0 c).q 3 = fullShare)
    (howed : ∀ c t, (dats 0 c).owed t = 0)
    (hA : ∀ c w, (dats 0 c).A w = V m c (Pipeline.arrRef spec0 w))
    (hΦ : ∀ c t, (dats 0 c).Φ t = Pipeline.ΦA spec0 c) :
    θ_run defs (onTc (τ := τ) (main (F := F))) (s₀ m ρ) (fun r => ∀ c : Dev nD,
        r.2.mem ((c : Thread nD τ).loc main_v7)
            = StableHlo.after hostOps1 (Function.update (V0 m c) (Proc.devRef .tc main_v5) ((dats 0 c).arrAt 4 cfg0.N)) (Proc.devRef .tc main_v7)
        ∧ r.2.mem ((c : Thread nD τ).loc main_arg0) = m ((c : Thread nD τ).loc main_arg0)) :=
  Pipeline.θ_run_region_pf_tail (fun q => (cfgs q).toPCfg (Val := Elt F)) (fun q => (cfgs q).toPCfg_adm) dats () cellOf_inj (0 : Fin 1) winFacts₀0
    (Pipeline.OwnSemFacts.none spec0) (Pipeline.PreFacts.none spec0) emb₁ defs₀ Variants.none m ρ main
    (fun _ => Pipeline.chain [StableHlo.seq hostOps1]) hbody block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => hsplit m c (dats 0 c) (hq0 c) (hq1 c) (hq2 c) (hq3 c) (hA c))
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (endVal m c ((dats 0 c).arrAt 4 cfg0.N)))
    (hX := fun c => by
      rw [Pipeline.unscopedRestP_none]
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr] <;> iassumption)
    (hout := fun c => by
      rw [hΦ, Pipeline.ownSems0_none]; unfold Pipeline.ΦA
      iintro ⟨Hr, Hp⟩
      isplitl [Hp]; · iexact Hp
      isplitr; · iempintro
      iexact Hr)
    (htail := fun c Q' => htail m Variants.none c (dats 0 c) Q')
    (QY := fun c s => s.mem ((c : Thread nD τ).loc main_v7) = endVal m c ((dats 0 c).arrAt 4 cfg0.N) main_v7
        ∧ s.mem ((c : Thread nD τ).loc main_arg0) = m ((c : Thread nD τ).loc main_arg0))
    (hY := fun c s' => hY m c _ s')
    (hQ := fun s h c => (h c).2.2)

end Cert.KernelIdeal.Hand

end
-- ==== Proof.KI.Tail.lean ====
/-
  The idealized kernel's last four operations, read at the ideal values, and a counting lemma.

  After the region the program sums ALL 32 × 128 entries of the result array (a sum started from a zero constant) and
  divides by a constant. At the ideal values (a float is an extended real and every operation is exact) the quotient's buffer
  therefore holds `(0 + Σ_{p < 32} Σ_{q < 128} X (p, q)) / κ`, with `X` the result array as the region leaves it and
  `κ` the constant's value (left as the float literal's reading).

  The counting lemma: an array of that shape whose only nonzero entries are at the cells (8 i, 0), i < 4 — one cell per
  8 × 128 block — sums to the sum of those four entries. In a row only column 0 counts; the rows that count are those
  whose number is a multiple of 8, and they are numbered by i ↦ 8 i, with inverse p ↦ p / 8.
-/
import proofs.«133118_j73297911873997_2_alg».proof.Proof.KI.Launch
import Idealize.ShloMosaic.Lib.StableHlo.Run
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe
open Idealize.ShloMosaic.StableHlo (after_cons after_nil nullary_result unary_result binary_result ternary_result quaternary_result reshape_result binaryIndexed_result nary4_result nary_result unaryIndexed_result nullary_result_ne unary_result_ne binary_result_ne ternary_result_ne quaternary_result_ne reshape_result_ne binaryIndexed_result_ne nary_result_ne unaryIndexed_result_ne)
open scoped BigOperators

/-- The four operations after the region, read at the quotient's buffer: the sum of ALL the result array's entries,
    started from zero, divided by the constant. (Stated over the exit valuation: the result array at `X`.) -/
theorem tail_read (m : (ℓ : Loc nD τ sig) → Buf (Elt Ideal) ℓ) (c : Dev nD) (X : (⟨S32x128, .f32⟩ : BufTy).Contents (Elt Ideal)) (i : S_.Idx) :
    (StableHlo.after hostOps1 (Function.update (V0 m c) (Proc.devRef .tc main_v5) X) (Proc.devRef .tc main_v7) : S_.Idx → EReal) i
      = Ideal.div (0 + ∑ p : Fin 32, ∑ q : Fin 128, X (ValueIdx.ix2 p q)) (Ideal.ofBits .f32 0x4B7FF000#32) := by
  have e : (StableHlo.after hostOps1 (exitVal m c X) (Proc.devRef .tc main_v7) : S_.Idx → EReal)
      = Host.divf (Host.reduceAdd X (constant (F := Ideal) S_ .f32 0x00000000#32) reducesTo_S32x128_S_d0_1 h_S_) (constant (F := Ideal) S_ .f32 0x4B7FF000#32) := by
    simp only [hostOps1]
    after_results
    rw [exitVal_v5]
  have hr : Host.reduceAdd X (constant (F := Ideal) S_ .f32 0x00000000#32) reducesTo_S32x128_S_d0_1 h_S_ i
      = 0 + ∑ j : S32x128.Idx, X j := by
    show Ideal.hostReduceAdd reducesTo_S32x128_S_d0_1 X (Ideal.ofBits .f32 0x00000000#32) i = _
    rw [Ideal.hostReduceAdd_total _ (fun b => b.elim0), Ideal.ofBits_zero_f32]
  show (StableHlo.after hostOps1 (exitVal m c X) (Proc.devRef .tc main_v7) : S_.Idx → EReal) i = _
  rw [e]
  show Ideal.div (Host.reduceAdd X (constant (F := Ideal) S_ .f32 0x00000000#32) reducesTo_S32x128_S_d0_1 h_S_ i) (Ideal.ofBits .f32 0x4B7FF000#32) = _
  rw [hr, ValueIdx.sum_idx2]

/-- Of a 32 × 128 array that is zero off the cells (8 i, 0), i < 4, the sum of all entries is the sum of those four. -/
theorem sum_cells (g : Fin 4 → EReal) :
    (∑ p : Fin 32, ∑ q : Fin 128, if p.val % 8 = 0 ∧ q.val = 0 then g ⟨p.val / 8, by omega⟩ else 0) = ∑ i : Fin 4, g i := by
  -- in each row only column 0 can be nonzero
  have hq : ∀ p : Fin 32, (∑ q : Fin 128, if p.val % 8 = 0 ∧ q.val = 0 then g ⟨p.val / 8, by omega⟩ else 0)
      = if p.val % 8 = 0 then g ⟨p.val / 8, by omega⟩ else 0 := by
    intro p
    rw [Finset.sum_eq_single (⟨0, by omega⟩ : Fin 128)]
    · simp only [and_true]
    · intro q _ hq0
      have hne : q.val ≠ 0 := fun h => hq0 (Fin.ext h)
      rw [if_neg (fun h => hne h.2)]
    · intro h; exact absurd (Finset.mem_univ _) h
  rw [Finset.sum_congr rfl (fun p _ => hq p), ← Finset.sum_filter]
  -- the rows 8 i, i < 4, are the rows whose number is a multiple of 8
  refine Finset.sum_nbij' (fun p => (⟨p.val / 8, by omega⟩ : Fin 4)) (fun k => (⟨8 * k.val, by omega⟩ : Fin 32)) ?_ ?_ ?_ ?_ ?_
  · intro p _; exact Finset.mem_univ _
  · intro k _; exact Finset.mem_filter.mpr ⟨Finset.mem_univ _, Nat.mul_mod_right 8 k.val⟩
  · intro p hp
    have h8 : p.val % 8 = 0 := (Finset.mem_filter.mp hp).2
    exact Fin.ext (by show 8 * (p.val / 8) = p.val; omega)
  · intro k _
    exact Fin.ext (by show 8 * k.val / 8 = k.val; omega)
  · intro p _; rfl

end Cert.KernelIdeal.Hand

end
-- ==== Proof.KI.Run.lean ====
/-
  The kernel program's run: every weakly fair execution terminates, nothing faulting; the result buffer ends at the
  four later host operations' value of the output array the pipeline leaves, and the argument array ends unchanged.
-/
import proofs.«133118_j73297911873997_2_alg».proof.Proof.KI.Body
import proofs.«133118_j73297911873997_2_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, for the proof data of the body obligation. -/
theorem run_main : θ_run defs (onTc (τ := τ) (main (F := F))) (s₀ m ρ) (fun r => ∀ c : Dev nD,
    r.2.mem ((c.tc : Thread nD τ).loc main_v7)
        = StableHlo.after hostOps1 (Function.update (V0 m c) (Proc.devRef .tc main_v5) ((dats m 0 c).arrAt 4 cfg0.N)) (Proc.devRef .tc main_v7)
    ∧ r.2.mem ((c.tc : Thread nD τ).loc main_arg0) = m ((c.tc : Thread nD τ).loc main_arg0)) :=
  run_around m ρ (dats m) (fun c => (body_obligation m c).loose) (fun _ => rfl) (fun _ => rfl) (fun _ => rfl) (fun _ => rfl)
    (fun _ _ => rfl) (A_eq m) (fun _ _ => rfl)

/-- The frame: the program runs and leaves its argument array as it found it. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c).2) (run_main m ρ)

end Cert.KernelIdeal.Hand

end
-- ==== Proof.Algebra1.lean ====
/-
  Real-valued twins of the quantities of the specification, and the fact that on a matrix of real numbers
  (seen inside the extended reals) every quantity of the specification is the coercion of its real twin.
  Nothing here is more than: the coercion ℝ → EReal respects 0, 1, +, -, *, finite sums and if-then-else.
-/
import proofs.«133118_j73297911873997_2_alg».proof.Proof.Spec

noncomputable section

namespace Cert.Pairwise

open scoped BigOperators

/-- The coercion of a finite sum of reals is the sum of the coercions (induction on the index set,
    each step being `EReal.coe_add`). -/
theorem coe_sum {ι : Type*} (s : Finset ι) (f : ι → ℝ) :
    ((∑ i ∈ s, f i : ℝ) : EReal) = ∑ i ∈ s, (f i : EReal) := by
  classical
  induction s using Finset.induction_on with
  | empty => simp
  | insert b s hb ih => rw [Finset.sum_insert hb, Finset.sum_insert hb, EReal.coe_add, ih]

/-- The coercion goes inside an if-then-else. -/
theorem coe_ite (p : Prop) [Decidable p] (x y : ℝ) :
    ((if p then x else y : ℝ) : EReal) = if p then (x : EReal) else (y : EReal) := by
  split_ifs <;> rfl

/-- A real matrix seen as a matrix of extended reals. -/
def emb (a : Fin 4096 → Fin 512 → ℝ) : Fin 4096 → Fin 512 → EReal := fun k c => (a k c : EReal)

section
variable (a : Fin 4096 → Fin 512 → ℝ)

/-- Squared length of row `k`, in the reals. -/
def sqR (k : Fin 4096) : ℝ := ∑ c : Fin 512, a k c * a k c

/-- Inner product of rows `k` and `l`, in the reals. -/
def gramR (k l : Fin 4096) : ℝ := ∑ c : Fin 512, a k c * a l c

/-- All ordered pairs with the diagonal struck out, in the reals. -/
def refSumR : ℝ :=
  ∑ k : Fin 4096, ∑ l : Fin 4096,
    ((sqR a k + sqR a l - 2 * gramR a k l) * (1 / 512)) * (1 - if k = l then (1 : ℝ) else 0)

/-- Sum of the squared lengths of the rows of block `i`, in the reals. -/
def rowSumR (i : Fin 4) : ℝ := ∑ r : Fin 1024, sqR a (row i r)

/-- Sum of all inner products between rows of block `i` and rows of block `j`, in the reals. -/
def gramSumR (i j : Fin 4) : ℝ := ∑ r : Fin 1024, ∑ s : Fin 1024, gramR a (row i r) (row j s)

/-- Closed form of the tile `(i, j)`, in the reals. -/
def tileR (i j : Fin 4) : ℝ :=
  (1024 * rowSumR a i + 1024 * rowSumR a j - 2 * gramSumR a i j) * (1 / 512)

/-- Sum of the inner products of the rows of block `i` with themselves, in the reals. -/
def traceSumR (i : Fin 4) : ℝ :=
  ∑ r : Fin 1024, ∑ s : Fin 1024, if r = s then gramR a (row i r) (row i s) else 0

/-- Contribution of the diagonal pairs of tile `(i, i)`, in the reals. -/
def diagR (i : Fin 4) : ℝ := (2 * rowSumR a i - 2 * traceSumR a i) * (1 / 512)

/-- One tile added to an accumulator, in the reals. -/
def stepR (i j : Fin 4) (o : ℝ) : ℝ :=
  if i = j then o + tileR a i j - diagR a i else o + tileR a i j

/-- Accumulator of block `i` after its four tiles, in the reals. -/
def accR (i : Fin 4) : ℝ := stepR a i 3 (stepR a i 2 (stepR a i 1 (stepR a i 0 0)))

/-- The four accumulators added, in the reals. -/
def kerSumR : ℝ := ∑ i : Fin 4, accR a i

theorem sq_emb (k : Fin 4096) : sq (emb a) k = (sqR a k : EReal) := by
  simp only [sq, sqR, emb, coe_sum, EReal.coe_mul, zero_add]

theorem gram_emb (k l : Fin 4096) : gram (emb a) k l = (gramR a k l : EReal) := by
  simp only [gram, gramR, emb, coe_sum, EReal.coe_mul]

theorem refSum_emb : refSum (emb a) = (refSumR a : EReal) := by
  simp only [refSum, refSumR, sq_emb, gram_emb, coe_sum, EReal.coe_mul, EReal.coe_sub, EReal.coe_add,
    coe_ite, EReal.coe_one, EReal.coe_zero, zero_add]

theorem rowSum_emb (i : Fin 4) : rowSum (emb a) i = (rowSumR a i : EReal) := by
  simp only [rowSum, rowSumR, sq_emb, coe_sum]

theorem gramSum_emb (i j : Fin 4) : gramSum (emb a) i j = (gramSumR a i j : EReal) := by
  simp only [gramSum, gramSumR, gram_emb, coe_sum]

theorem tile_emb (i j : Fin 4) : tile (emb a) i j = (tileR a i j : EReal) := by
  simp only [tile, tileR, rowSum_emb, gramSum_emb, EReal.coe_mul, EReal.coe_sub, EReal.coe_add]

theorem traceSum_emb (i : Fin 4) : traceSum (emb a) i = (traceSumR a i : EReal) := by
  simp only [traceSum, traceSumR, gram_emb, coe_sum, coe_ite, EReal.coe_zero]

theorem diag_emb (i : Fin 4) : diag (emb a) i = (diagR a i : EReal) := by
  simp only [diag, diagR, rowSum_emb, traceSum_emb, EReal.coe_mul, EReal.coe_sub]

theorem step_emb (i j : Fin 4) (o : ℝ) :
    step (emb a) i j (o : EReal) = (stepR a i j o : EReal) := by
  unfold step stepR
  split_ifs
  · rw [tile_emb, diag_emb, EReal.coe_sub, EReal.coe_add]
  · rw [tile_emb, EReal.coe_add]

theorem acc_emb (i : Fin 4) : acc (emb a) i = (accR a i : EReal) := by
  unfold acc accR
  rw [← EReal.coe_zero, step_emb, step_emb, step_emb, step_emb]

theorem kerSum_emb : kerSum (emb a) = (kerSumR a : EReal) := by
  simp only [kerSum, kerSumR, acc_emb, coe_sum, zero_add]

end

end Cert.Pairwise

end
-- ==== Proof.Algebra2.lean ====
/-
  The identity in the real numbers.

  Write `d k l = (sq k + sq l - 2 · gram k l) / 512`. Then
    Σ_{k,l} d k l · (1 - [k = l]) = Σ_{k,l} d k l - Σ_k d k k.
  Every row index `k` is `row i r` for exactly one block `i` and one offset `r`, so a sum over rows is a sum over
  blocks of a sum over offsets. Distributing the sums over a 1024 × 1024 tile gives
    Σ_{r,s} d (row i r) (row j s) = (1024 · S i + 1024 · S j - 2 · G i j) / 512,
  and on the diagonal
    Σ_r d (row i r) (row i r) = (2 · S i - 2 · T i) / 512,
  where `S`, `G`, `T` are the block sums of squared lengths, of inner products and of self inner products.
  Finally the accumulator of block `i` is the sum of its four tiles minus its diagonal correction.
-/
import proofs.«133118_j73297911873997_2_alg».proof.Proof.Algebra1
import Mathlib.Tactic.Ring
import Mathlib.Algebra.BigOperators.Ring.Finset
import Mathlib.Data.Real.Basic

noncomputable section

namespace Cert.Pairwise

open scoped BigOperators

/-- Block and offset of a row: `(i, r) ↦ row i r` is a bijection, with inverse `k ↦ (k / 1024, k % 1024)`. -/
def rowEquiv : Fin 4 × Fin 1024 ≃ Fin 4096 where
  toFun p := row p.1 p.2
  invFun k := (⟨k.val / 1024, by omega⟩, ⟨k.val % 1024, by omega⟩)
  left_inv := by
    rintro ⟨i, r⟩
    refine Prod.ext (Fin.ext ?_) (Fin.ext ?_)
    · simp only [row]; omega
    · simp only [row]; omega
  right_inv := by
    intro k
    refine Fin.ext ?_
    simp only [row]; omega

/-- A sum over all rows is a sum over blocks of a sum over offsets. -/
theorem sum_row (f : Fin 4096 → ℝ) :
    ∑ k : Fin 4096, f k = ∑ i : Fin 4, ∑ r : Fin 1024, f (row i r) := by
  rw [← Equiv.sum_comp rowEquiv f, Fintype.sum_prod_type]
  rfl

/-- A sum over all ordered pairs of rows is a sum over pairs of blocks of a sum over the tile. -/
theorem sum_pairs (d : Fin 4096 → Fin 4096 → ℝ) :
    ∑ k : Fin 4096, ∑ l : Fin 4096, d k l
      = ∑ i : Fin 4, ∑ j : Fin 4, ∑ r : Fin 1024, ∑ s : Fin 1024, d (row i r) (row j s) := by
  rw [sum_row]
  refine Finset.sum_congr rfl (fun i _ => ?_)
  calc ∑ r : Fin 1024, ∑ l : Fin 4096, d (row i r) l
      = ∑ r : Fin 1024, ∑ j : Fin 4, ∑ s : Fin 1024, d (row i r) (row j s) :=
        Finset.sum_congr rfl (fun r _ => sum_row (fun l => d (row i r) l))
    _ = ∑ j : Fin 4, ∑ r : Fin 1024, ∑ s : Fin 1024, d (row i r) (row j s) := Finset.sum_comm

/-- Striking out the diagonal: the weight `1 - [k = l]` removes exactly the terms `d k k`. -/
theorem sum_offdiag (d : Fin 4096 → Fin 4096 → ℝ) :
    ∑ k : Fin 4096, ∑ l : Fin 4096, d k l * (1 - if k = l then (1 : ℝ) else 0)
      = ∑ k : Fin 4096, ∑ l : Fin 4096, d k l - ∑ k : Fin 4096, d k k := by
  rw [← Finset.sum_sub_distrib]
  refine Finset.sum_congr rfl (fun k _ => ?_)
  have h : ∀ l : Fin 4096,
      d k l * (1 - if k = l then (1 : ℝ) else 0) = d k l - if k = l then d k l else 0 := by
    intro l
    split_ifs <;> ring
  simp only [h, Finset.sum_sub_distrib, Finset.sum_ite_eq, Finset.mem_univ, if_true]

/-- Distributing the double sum over a 1024 × 1024 tile: a term depending on one index only is counted 1024 times. -/
theorem sum_tile (u v : Fin 1024 → ℝ) (w : Fin 1024 → Fin 1024 → ℝ) (c : ℝ) :
    ∑ r : Fin 1024, ∑ s : Fin 1024, (u r + v s - 2 * w r s) * c
      = (1024 * ∑ r : Fin 1024, u r + 1024 * ∑ s : Fin 1024, v s
          - 2 * ∑ r : Fin 1024, ∑ s : Fin 1024, w r s) * c := by
  simp only [← Finset.sum_mul, Finset.sum_sub_distrib, Finset.sum_add_distrib, Finset.sum_const,
    Finset.card_univ, Fintype.card_fin, nsmul_eq_mul, ← Finset.mul_sum]
  push_cast
  ring

/-- The diagonal of a tile: the masked double sum keeps exactly the terms `w r r`. -/
theorem sum_diag (u : Fin 1024 → ℝ) (w : Fin 1024 → Fin 1024 → ℝ) (c : ℝ) :
    ∑ r : Fin 1024, (u r + u r - 2 * w r r) * c
      = (2 * ∑ r : Fin 1024, u r
          - 2 * ∑ r : Fin 1024, ∑ s : Fin 1024, if r = s then w r s else 0) * c := by
  simp only [Finset.sum_ite_eq, Finset.mem_univ, if_true, ← Finset.sum_mul, Finset.sum_sub_distrib,
    Finset.sum_add_distrib, ← Finset.mul_sum]
  ring

section
variable (a : Fin 4096 → Fin 512 → ℝ)

/-- One step adds the tile and takes off the diagonal correction exactly when the tile is the diagonal one. -/
theorem stepR_eq (i j : Fin 4) (o : ℝ) :
    stepR a i j o = o + (tileR a i j - if i = j then diagR a i else 0) := by
  unfold stepR
  split_ifs <;> ring

/-- The accumulator of block `i` is the sum of its four tiles minus its diagonal correction. -/
theorem accR_eq (i : Fin 4) : accR a i = ∑ j : Fin 4, tileR a i j - diagR a i := by
  have h : ∑ j : Fin 4, (tileR a i j - if i = j then diagR a i else 0)
      = ∑ j : Fin 4, tileR a i j - diagR a i := by
    rw [Finset.sum_sub_distrib, Finset.sum_ite_eq, if_pos (Finset.mem_univ i)]
  rw [← h, Fin.sum_univ_four]
  simp only [accR, stepR_eq]
  ring

/-- The two arrangements agree in the real numbers. -/
theorem kerSumR_eq_refSumR : kerSumR a = refSumR a := by
  have h1 : refSumR a
      = ∑ k : Fin 4096, ∑ l : Fin 4096, (sqR a k + sqR a l - 2 * gramR a k l) * (1 / 512)
        - ∑ k : Fin 4096, (sqR a k + sqR a k - 2 * gramR a k k) * (1 / 512) :=
    sum_offdiag (fun k l => (sqR a k + sqR a l - 2 * gramR a k l) * (1 / 512))
  have h2 : ∑ k : Fin 4096, ∑ l : Fin 4096, (sqR a k + sqR a l - 2 * gramR a k l) * (1 / 512)
      = ∑ i : Fin 4, ∑ j : Fin 4, tileR a i j := by
    rw [sum_pairs (fun k l => (sqR a k + sqR a l - 2 * gramR a k l) * (1 / 512))]
    refine Finset.sum_congr rfl (fun i _ => Finset.sum_congr rfl (fun j _ => ?_))
    exact sum_tile (fun r => sqR a (row i r)) (fun s => sqR a (row j s))
      (fun r s => gramR a (row i r) (row j s)) (1 / 512)
  have h3 : ∑ k : Fin 4096, (sqR a k + sqR a k - 2 * gramR a k k) * (1 / 512)
      = ∑ i : Fin 4, diagR a i := by
    rw [sum_row (fun k => (sqR a k + sqR a k - 2 * gramR a k k) * (1 / 512))]
    refine Finset.sum_congr rfl (fun i _ => ?_)
    exact sum_diag (fun r => sqR a (row i r)) (fun r s => gramR a (row i r) (row i s)) (1 / 512)
  rw [h1, h2, h3, ← Finset.sum_sub_distrib]
  unfold kerSumR
  exact Finset.sum_congr rfl (fun i _ => accR_eq a i)

end

end Cert.Pairwise

end
-- ==== Proof.Algebra.lean ====
/-
  The two arrangements of the pairwise sum agree on a matrix all of whose entries are real numbers.

  Such a matrix is the image of a real matrix; on it both quantities are coercions of their real twins,
  and the twins are equal by the identity proved in the real numbers. (Finiteness is needed: multiplication
  does not distribute over addition at the infinities of the extended reals.)
-/
import proofs.«133118_j73297911873997_2_alg».proof.Proof.Algebra2

namespace Cert.Pairwise

theorem kerSum_eq_refSum (A : Fin 4096 → Fin 512 → EReal) (hA : ∀ k c, A k c ≠ ⊤ ∧ A k c ≠ ⊥) :
    kerSum A = refSum A := by
  obtain ⟨a, rfl⟩ : ∃ a : Fin 4096 → Fin 512 → ℝ, A = emb a :=
    ⟨fun k c => (A k c).toReal, by
      funext k c
      exact (EReal.coe_toReal (hA k c).1 (hA k c).2).symm⟩
  rw [kerSum_emb, refSum_emb, kerSumR_eq_refSumR]

end Cert.Pairwise
-- ==== Proof.KI.Value.lean ====
/-
  The idealized kernel's result on the extended reals: the output array holds, in the first cell of each row block's
  8 × 128 block, that row block's accumulator and zero elsewhere; the host's sum of the array is the sum of the four
  accumulators, which — every entry of the argument being a real number — is the sum over all ordered pairs of rows
  of their squared distance over 512, the diagonal struck out; the last operation divides by the number of pairs.
-/
import proofs.«133118_j73297911873997_2_alg».proof.Proof.KI.Accum
import proofs.«133118_j73297911873997_2_alg».proof.Proof.KI.FinalArray
import proofs.«133118_j73297911873997_2_alg».proof.Proof.KI.Tail
import proofs.«133118_j73297911873997_2_alg».proof.Proof.KI.Run
import proofs.«133118_j73297911873997_2_alg».proof.Proof.Algebra

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Cert.Pairwise
open scoped BigOperators

variable (mI : (ℓ : Loc nD τ sig) → Buf (Elt Ideal) ℓ)

/-- The result term of the run, at a finite argument, is the specification's pair sum divided by the pair count. -/
theorem kernel_value (c : Dev nD) (hfin : ∀ k cc, mat (argArr mI c) k cc ≠ ⊤ ∧ mat (argArr mI c) k cc ≠ ⊥) (i : S_.Idx) :
    (StableHlo.after hostOps1 (Function.update (V0 mI c) (Proc.devRef .tc main_v5) ((dats mI 0 c).arrAt 4 cfg0.N)) (Proc.devRef .tc main_v7) : S_.Idx → EReal) i
      = Ideal.div (refSum (mat (argArr mI c))) (Ideal.ofBits .f32 0x4B7FF000#32) := by
  rw [tail_read]
  have hcells : ∀ (p : Fin 32) (q : Fin 128), ((dats mI 0 c).arrAt 4 cfg0.N : S32x128.Idx → EReal) (ix2 p q)
      = if p.val % 8 = 0 ∧ q.val = 0 then acc (mat (argArr mI c)) ⟨p.val / 8, by omega⟩ else 0 :=
    final_array mI c (acc (mat (argArr mI c))) (fun t ht y => outsAt0_flush mI c t ht y)
  simp only [hcells]
  rw [sum_cells (acc (mat (argArr mI c)))]
  exact congrArg (Ideal.div · _) (kerSum_eq_refSum (mat (argArr mI c)) hfin)

end Cert.KernelIdeal.Hand

end
-- ==== Proof.LibFinite.lean ====
/-
  General facts about finiteness on the extended reals, for certificates whose precondition says that every
  float input is finite and whose algebra (distributivity, cancellation) needs it.

  * `coe_sum`: the inclusion of the reals into the extended reals commutes with finite sums, so an identity
    between sums of finite entries can be proved over the reals and carried back.
  * `ofBool_one`, `inf_word`, `finite_of_abs_lt`: one element of a printed `|x| < +∞` test, read back — the
    f32 word `0x7F800000` is `+∞`, `|x|` is `max x (-x)`, and that is below `+∞` only when `x` is a real number.
-/
import Idealize.ShloMosaic.PureOps.Ideal
import Idealize.ShloMosaic.PureOps.Ideal.Laws

namespace Cert.LibFinite

open Idealize.ShloMosaic

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A Boolean read as a one-bit word is the word 1 exactly when it is true. -/
theorem ofBool_one (b : Bool) : BitVec.ofBool b = 1#1 ↔ b = true := by cases b <;> decide

/-- The f32 word `0x7F800000` is `+∞`. -/
theorem inf_word : Ideal.ofBits .f32 0x7F800000#32 = ⊤ := by simp [Ideal.ofBits, Ideal.ieee]

/-- An extended real whose absolute value compares below `+∞` is neither infinity: `|x| = max x (-x)` is `+∞` at
    both. (The host's and the kernel's absolute value are one function on the extended reals.) -/
theorem finite_of_abs_lt (x : EReal)
    (h : FloatOps.cmpf (F := Ideal) (φ := .f32) .olt (FloatOps.hostAbsf (F := Ideal) (φ := .f32) x)
      (Ideal.ofBits .f32 0x7F800000#32) = 1#1) : x ≠ ⊤ ∧ x ≠ ⊥ := by
  rw [Ideal.hostAbsf_def, Ideal.absf_def, Ideal.cmpf_def, inf_word] at h
  have h2 : BitVec.ofBool (decide (max x (-x) < ⊤)) = 1#1 := h
  have h' : max x (-x) < ⊤ := of_decide_eq_true ((ofBool_one _).1 h2)
  induction x using EReal.rec with
  | bot => simp at h'
  | top => simp at h'
  | coe r => exact ⟨EReal.coe_ne_top r, EReal.coe_ne_bot r⟩

end Cert.LibFinite
-- ==== Proof.Finite.lean ====
/-
  The precondition read back: "every entry of the argument matrix has absolute value below +∞" says that every
  entry is a real number — what the algebra that joins the two programs (distributing sums over products) needs.
-/
import proofs.«133118_j73297911873997_2_alg».proof.Pre_finite_inputs
import proofs.«133118_j73297911873997_2_alg».proof.Proof.Gen.Pre_finite_inputs
import proofs.«133118_j73297911873997_2_alg».proof.Proof.LibFinite
import Idealize.ShloMosaic.Lib.ReduceAll
import Idealize.ShloMosaic.Lib.ValueIdx

noncomputable section

namespace Cert.Pairwise

open Idealize.ShloMosaic Idealize.ShloMosaic.ValueIdx

instance : Subsingleton Cert.Pre_finite_inputs.S_.Idx := ⟨fun a b => funext fun d => d.elim0⟩

/-- If the printed finiteness test of an argument array is all ones, every entry of the array is a real number. -/
theorem finite_of_pre [Cert.Pre_finite_inputs.Facts] (x : FVec Ideal Cert.Pre_finite_inputs.S4096x512 .f32)
    (h : Cert.Pre_finite_inputs.fn (F := Ideal) x = (fun _ => 1#1)) (i : Cert.Pre_finite_inputs.S4096x512.Idx) :
    x i ≠ ⊤ ∧ x i ≠ ⊥ := by
  have h0 := congrFun h ix0
  dsimp only [Cert.Pre_finite_inputs.fn] at h0
  have hi := Host.reduce_andi_all _ _ _ _ _ h0 i
  exact Cert.LibFinite.finite_of_abs_lt (x i) hi

end Cert.Pairwise

end
-- ==== Proof.lean ====
/-
  The certificate that a tiled kernel computing the mean pairwise squared distance of the 4096 rows of a matrix
  agrees, on the extended reals, with the plain reference, and that both programs and the word-level kernel run to
  the end leaving the argument matrix as it was.

  The reference forms, for every ordered pair of rows (k, l), the squared distance |a_k|² + |a_l|² − 2 a_k·a_l divided
  by 512, strikes the diagonal out with the weight 1 − [k = l], sums all 4096² entries and divides by the number of
  off-diagonal pairs. The kernel never forms that matrix: it cuts the rows into 4 blocks of 1024 and, for each of the
  16 pairs of blocks, adds to the row block's accumulator the sum of the tile's entries in closed form —
  1024·Σ|a_k|² + 1024·Σ|a_l|² − 2·ΣΣ a_k·a_l over the tile's rows and columns, over 512 — and on the four diagonal
  tiles takes off what the diagonal pairs contributed; the four accumulators are then added and divided by the same
  count. Distributing the sums makes the two equal; that step needs every entry to be a real number, which is what
  the precondition says.

  The kernel's run is the pipeline library's region rule applied to the proof data of the body obligation (the
  accumulator block carried in its staging buffer across a row's four grid points); two of the five windows read
  the same array, each holding half of it. The reference's run and its reading at an index are generated modules.
-/
import proofs.«133118_j73297911873997_2_alg».proof.Defs
import proofs.«133118_j73297911873997_2_alg».proof.Proof.Gen.Kernel
import proofs.«133118_j73297911873997_2_alg».proof.Proof.Gen.Kernel.Skeleton
import proofs.«133118_j73297911873997_2_alg».proof.Proof.Gen.Kernel.Launch
import proofs.«133118_j73297911873997_2_alg».proof.Proof.Gen.Kernel.Points
import proofs.«133118_j73297911873997_2_alg».proof.Proof.Gen.KernelIdeal
import proofs.«133118_j73297911873997_2_alg».proof.Proof.Gen.KernelIdeal.Skeleton
import proofs.«133118_j73297911873997_2_alg».proof.Proof.Gen.KernelIdeal.Launch
import proofs.«133118_j73297911873997_2_alg».proof.Proof.Gen.KernelIdeal.Points
import proofs.«133118_j73297911873997_2_alg».proof.Proof.Gen.ReferenceIdeal
import proofs.«133118_j73297911873997_2_alg».proof.Proof.Gen.ReferenceIdeal.Run
import proofs.«133118_j73297911873997_2_alg».proof.Proof.Gen.ReferenceIdeal.Read
import proofs.«133118_j73297911873997_2_alg».proof.Proof.Gen.Pre_finite_inputs
import proofs.«133118_j73297911873997_2_alg».proof.Proof.K.Run
import proofs.«133118_j73297911873997_2_alg».proof.Proof.KI.Value
import proofs.«133118_j73297911873997_2_alg».proof.Proof.RefValue
import proofs.«133118_j73297911873997_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.Pairwise

/-- The word-level kernel runs to the end and leaves its argument as it found it. -/
theorem frame_kernel : Cert.frame_Kernel := fun m ρ _ => Cert.Kernel.Hand.frame (F := Bits) m ρ

/-- So does the kernel read on the extended reals. -/
theorem frame_kernelIdeal : Cert.frame_KernelIdeal := fun m ρ _ => Cert.KernelIdeal.Hand.frame (F := Ideal) m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the argument, both programs end with the pair sum over the pair count: the kernel by its
    accumulators (the value of its run), the reference by its operations read at an index. -/
theorem algebraic : Cert.algebraic_KernelIdeal_ReferenceIdeal := by
  intro m ρ m' ρ' hpre hagree
  have hfin : ∀ (c : Dev Cert.KernelIdeal.nD) k cc, mat (Cert.KernelIdeal.Hand.argArr m c) k cc ≠ ⊤ ∧ mat (Cert.KernelIdeal.Hand.argArr m c) k cc ≠ ⊥ :=
    fun c k cc => finite_of_pre (Cert.KernelIdeal.Hand.argArr m c) (hpre c) (ix2 k cc)
  refine ⟨fun c => fun _ => Ideal.div (refSum (mat (Cert.KernelIdeal.Hand.argArr m c))) (Ideal.ofBits .f32 0x4B7FF000#32), ?_, ?_⟩
  · refine (θ_run Cert.KernelIdeal.defs _ _).mono (fun r h c => ⟨(h c).1.trans ?_, (h c).2⟩)
      (Cert.KernelIdeal.Hand.run_main (F := Ideal) m ρ)
    exact funext fun i => Cert.KernelIdeal.Hand.kernel_value m c (hfin c) i
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v24_eq, hagree c]
    exact funext fun i => ref_value _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
